-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x3 : Shape := ⟨3, ![16, 10000, 3]⟩
abbrev S16x256x56x56 : Shape := ⟨4, ![16, 256, 56, 56]⟩
abbrev S16x4x4 : Shape := ⟨3, ![16, 4, 4]⟩
abbrev S_ : Shape := ⟨0, ![]⟩

class Facts : Prop where
  bcast_S_S16x10000x3 : S_.BroadcastsInDim S16x10000x3 (![] : Fin 0 → Fin S16x10000x3.rank)
  reducesTo_S16x10000x3_S_d0_1_2 : S16x10000x3.ReducesTo [0, 1, 2] S_
  h_S_ : 0 < S_.numel
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  bcast_S_S16x4x4 : S_.BroadcastsInDim S16x4x4 (![] : Fin 0 → Fin S16x4x4.rank)
  reducesTo_S16x4x4_S_d0_1_2 : S16x4x4.ReducesTo [0, 1, 2] S_

variable [Facts]

def fn {F : FTy → Type} [FloatOps F] (main_arg0 : FVec F S16x10000x3 .f32) (main_arg1 : FVec F S16x256x56x56 .f32) (main_arg2 : FVec F S16x4x4 .f32) : IVec S_ 1 :=
  let main_v0 : FVec F S16x10000x3 .f32 := Host.absf main_arg0
  let main_cst : FVec F S_ .f32 := constant S_ .f32 0x7F800000#32
  let main_v1 : FVec F S16x10000x3 .f32 := broadcastInDim S16x10000x3 ![] bcast_S_S16x10000x3 main_cst
  let main_v2 : IVec S16x10000x3 1 := cmpf .olt main_v0 main_v1
  let main_c : IVec S_ 1 := constantI S_ 1 1#1
  let main_v3 : IVec S_ 1 := (fun x v => Host.reduce IntOp.andi x v reducesTo_S16x10000x3_S_d0_1_2 h_S_) main_v2 main_c
  let main_v4 : FVec F S16x256x56x56 .f32 := Host.absf main_arg1
  let main_cst_0 : FVec F S_ .f32 := constant S_ .f32 0x7F800000#32
  let main_v5 : FVec F S16x256x56x56 .f32 := broadcastInDim S16x256x56x56 ![] bcast_S_S16x256x56x56 main_cst_0
  let main_v6 : IVec S16x256x56x56 1 := cmpf .olt main_v4 main_v5
  let main_c_1 : IVec S_ 1 := constantI S_ 1 1#1
  let main_v7 : IVec S_ 1 := (fun x v => Host.reduce IntOp.andi x v reducesTo_S16x256x56x56_S_d0_1_2_3 h_S_) main_v6 main_c_1
  let main_v8 : IVec S_ 1 := andi main_v3 main_v7
  let main_v9 : FVec F S16x4x4 .f32 := Host.absf main_arg2
  let main_cst_2 : FVec F S_ .f32 := constant S_ .f32 0x7F800000#32
  let main_v10 : FVec F S16x4x4 .f32 := broadcastInDim S16x4x4 ![] bcast_S_S16x4x4 main_cst_2
  let main_v11 : IVec S16x4x4 1 := cmpf .olt main_v9 main_v10
  let main_c_3 : IVec S_ 1 := constantI S_ 1 1#1
  let main_v12 : IVec S_ 1 := (fun x v => Host.reduce IntOp.andi x v reducesTo_S16x4x4_S_d0_1_2 h_S_) main_v11 main_c_3
  let main_v13 : IVec S_ 1 := andi main_v8 main_v12
  main_v13
-- ==== Kernel.lean ====
abbrev S16x10000x3 : Shape := ⟨3, ![16, 10000, 3]⟩
abbrev S16x256x56x56 : Shape := ⟨4, ![16, 256, 56, 56]⟩
abbrev S16x4x4 : Shape := ⟨3, ![16, 4, 4]⟩
abbrev S16x56x56x256 : Shape := ⟨4, ![16, 56, 56, 256]⟩
abbrev S16x3136x256 : Shape := ⟨3, ![16, 3136, 256]⟩
abbrev S16x10000x256 : Shape := ⟨3, ![16, 10000, 256]⟩
abbrev S1x400x3 : Shape := ⟨3, ![1, 400, 3]⟩
abbrev S1x4x4 : Shape := ⟨3, ![1, 4, 4]⟩
abbrev S1x3136x256 : Shape := ⟨3, ![1, 3136, 256]⟩
abbrev S1x400x256 : Shape := ⟨3, ![1, 400, 256]⟩
abbrev S400x3 : Shape := ⟨2, ![400, 3]⟩
abbrev S4x4 : Shape := ⟨2, ![4, 4]⟩
abbrev S3136x256 : Shape := ⟨2, ![3136, 256]⟩
abbrev S400x1 : Shape := ⟨2, ![400, 1]⟩
abbrev S400x4 : Shape := ⟨2, ![400, 4]⟩
abbrev S400 : Shape := ⟨1, ![400]⟩
abbrev S400x3136 : Shape := ⟨2, ![400, 3136]⟩
abbrev S400x256 : Shape := ⟨2, ![400, 256]⟩

abbrev nBuf : Space → Nat
  | .hbm => 6
  | .vmem => 8
  | .smem => 0
  | _ => 0

abbrev bufTy : (tb : Table) → Fin (tcTables nBuf tb) → BufTy
  | .hbm, ⟨0, _⟩ => ⟨S16x10000x3, .f32⟩
  | .hbm, ⟨1, _⟩ => ⟨S16x256x56x56, .f32⟩
  | .hbm, ⟨2, _⟩ => ⟨S16x4x4, .f32⟩
  | .hbm, ⟨3, _⟩ => ⟨S16x56x56x256, .f32⟩
  | .hbm, ⟨4, _⟩ => ⟨S16x3136x256, .f32⟩
  | .hbm, ⟨5, _⟩ => ⟨S16x10000x256, .f32⟩
  | .local _ .vmem, ⟨0, _⟩ => ⟨S1x400x3, .f32⟩
  | .local _ .vmem, ⟨1, _⟩ => ⟨S1x400x3, .f32⟩
  | .local _ .vmem, ⟨2, _⟩ => ⟨S1x4x4, .f32⟩
  | .local _ .vmem, ⟨3, _⟩ => ⟨S1x4x4, .f32⟩
  | .local _ .vmem, ⟨4, _⟩ => ⟨S1x3136x256, .f32⟩
  | .local _ .vmem, ⟨5, _⟩ => ⟨S1x3136x256, .f32⟩
  | .local _ .vmem, ⟨6, _⟩ => ⟨S1x400x256, .f32⟩
  | .local _ .vmem, ⟨7, _⟩ => ⟨S1x400x256, .f32⟩
  | _, _ => ⟨S16x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x400x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3136x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x256x56x56_S16x56x56x256_0_3_2_1 : S16x256x56x56.Transposes [0, 3, 2, 1] S16x56x56x256
  shapeCasts_S16x56x56x256_S16x3136x256 : S16x56x56x256.ShapeCasts S16x3136x256
  inb_S1x400x3_S1x400x3_0_0_0 : ∀ a, (![0, 0, 0] : Fin 3 → Nat) a + S1x400x3.size a ≤ S1x400x3.size a
  h_S1x400x3 : 0 < S1x400x3.numel
  shapeCasts_S1x400x3_S400x3 : S1x400x3.ShapeCasts S400x3
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S3136x256 : S1x3136x256.ShapeCasts S3136x256
  concatenates_S400x3_S400x1_S400x4_d1 : Shape.Concatenates [S400x3, S400x1] S400x4 1
  slices_S400x4_o0_0_S400x1 : S400x4.Slices ![0, 0] S400x1
  shapeCasts_S400x1_S400 : S400x1.ShapeCasts S400
  slices_S400x4_o0_3_S400x1 : S400x4.Slices ![0, 3] S400x1
  slices_S400x4_o0_1_S400x1 : S400x4.Slices ![0, 1] S400x1
  iota_S400x3136_d1_w32 : S400x3136.Iotas .tc 32 [1]
  shapeCasts_S400_S400x1 : S400.ShapeCasts S400x1
  broadcasts_S400x1_S400x3136 : S400x1.Broadcasts S400x3136
  shapeCasts_S400x1_S400x1 : S400x1.ShapeCasts S400x1
  bitsLt_bf16_f32 : FTy.bits .bf16 < FTy.bits .f32
  inb_S1x400x256_S1x400x256_0_0_0 : ∀ a, (![0, 0, 0] : Fin 3 → Nat) a + S1x400x256.size a ≤ S1x400x256.size a
  h_S1x400x256 : 0 < S1x400x256.numel
  shapeCasts_S1x400x256_S400x256 : S1x400x256.ShapeCasts S400x256
  shapeCasts_S400x256_S1x400x256 : S400x256.ShapeCasts S1x400x256
  dot_S400x4_S4x4_S400x4_1_1_0_0_n_n_wf : DotDims.WF S400x4 S4x4 S400x4 [1] [1] [0] [0] [] []
  dot_S400x3136_S3136x256_S400x256_1_0_0_1_n_n_wf : DotDims.WF S400x3136 S3136x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x3.size a ≤ S16x10000x3.size a
  hwx0_0 : ∀ i : grid0.Coords, EltTy.bits .f32 = 32 ∨ (Rect.block (s := S16x10000x3) S1x400x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4.size a ≤ S16x4x4.size a
  hwx0_1 : ∀ i : grid0.Coords, EltTy.bits .f32 = 32 ∨ (Rect.block (s := S16x4x4) S1x4x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3136x256.size a ≤ S16x3136x256.size a
  hwx0_2 : ∀ i : grid0.Coords, EltTy.bits .f32 = 32 ∨ (Rect.block (s := S16x3136x256) S1x3136x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x400x256.size a ≤ S16x10000x256.size a
  hwx0_3 : ∀ i : grid0.Coords, EltTy.bits .f32 = 32 ∨ (Rect.block (s := S16x10000x256) S1x400x256.size (cc0_transform_3 i) (hinb0_3 i)).WholeWords (EltTy.packing .f32)

variable [Facts₀]

def dot_S400x4_S4x4_S400x4_1_1_0_0_n_n : DotDims S400x4 S4x4 S400x4 where
  lhsContracting := [1]
  rhsContracting := [1]
  lhsNonContracting := [0]
  rhsNonContracting := [0]
  lhsBatch := []
  rhsBatch := []
  wf := dot_S400x4_S4x4_S400x4_1_1_0_0_n_n_wf
def dot_S400x3136_S3136x256_S400x256_1_0_0_1_n_n : DotDims S400x3136 S3136x256 S400x256 where
  lhsContracting := [1]
  rhsContracting := [0]
  lhsNonContracting := [0]
  rhsNonContracting := [1]
  lhsBatch := []
  rhsBatch := []
  wf := dot_S400x3136_S3136x256_S400x256_1_0_0_1_n_n_wf

abbrev win0_0 : Pipeline.Window sig grid0 :=
  Pipeline.Window.ofSpec (Memref.whole main_arg0) S1x400x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3136x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x10000x3 : Shape := ⟨3, ![16, 10000, 3]⟩
abbrev S16x256x56x56 : Shape := ⟨4, ![16, 256, 56, 56]⟩
abbrev S16x4x4 : Shape := ⟨3, ![16, 4, 4]⟩
abbrev S_ : Shape := ⟨0, ![]⟩
abbrev S16x10000x1 : Shape := ⟨3, ![16, 10000, 1]⟩
abbrev S16x10000x4 : Shape := ⟨3, ![16, 10000, 4]⟩
abbrev S16x10000 : Shape := ⟨2, ![16, 10000]⟩
abbrev S16x56x56x256 : Shape := ⟨4, ![16, 56, 56, 256]⟩
abbrev S16x10000x2 : Shape := ⟨3, ![16, 10000, 2]⟩
abbrev S16x10000x256 : Shape := ⟨3, ![16, 10000, 256]⟩

abbrev nBuf : Space → Nat
  | .hbm => 166
  | .vmem => 0
  | .smem => 0
  | _ => 0

abbrev hbmTy0_0 (i : Nat) : BufTy := match i % 128 with
  | 0 => ⟨S16x10000x3, .f32⟩
  | 1 => ⟨S16x256x56x56, .f32⟩
  | 2 => ⟨S16x4x4, .f32⟩
  | 3 => ⟨S_, .f32⟩
  | 4 => ⟨S16x10000x1, .f32⟩
  | 5 => ⟨S16x10000x4, .f32⟩
  | 6 => ⟨S16x10000x4, .f32⟩
  | 7 => ⟨S16x10000x1, .f32⟩
  | 8 => ⟨S16x10000, .f32⟩
  | 9 => ⟨S16x10000x1, .f32⟩
  | 10 => ⟨S16x10000, .f32⟩
  | 11 => ⟨S16x10000, .f32⟩
  | 12 => ⟨S_, .f32⟩
  | 13 => ⟨S16x10000, .f32⟩
  | 14 => ⟨S16x10000, .f32⟩
  | 15 => ⟨S_, .f32⟩
  | 16 => ⟨S16x10000, .f32⟩
  | 17 => ⟨S16x10000, .f32⟩
  | 18 => ⟨S16x10000x1, .f32⟩
  | 19 => ⟨S16x10000, .f32⟩
  | 20 => ⟨S16x10000x1, .f32⟩
  | 21 => ⟨S16x10000, .f32⟩
  | 22 => ⟨S16x10000, .f32⟩
  | 23 => ⟨S_, .f32⟩
  | 24 => ⟨S16x10000, .f32⟩
  | 25 => ⟨S16x10000, .f32⟩
  | 26 => ⟨S_, .f32⟩
  | 27 => ⟨S16x10000, .f32⟩
  | 28 => ⟨S16x10000, .f32⟩
  | 29 => ⟨S_, .f32⟩
  | 30 => ⟨S16x10000, .f32⟩
  | 31 => ⟨S16x10000, .f32⟩
  | 32 => ⟨S_, .f32⟩
  | 33 => ⟨S16x10000, .f32⟩
  | 34 => ⟨S16x10000, .f32⟩
  | 35 => ⟨S_, .i32⟩
  | 36 => ⟨S_, .i32⟩
  | 37 => ⟨S_, .f32⟩
  | 38 => ⟨S16x10000, .f32⟩
  | 39 => ⟨S16x10000, .f32⟩
  | 40 => ⟨S_, .f32⟩
  | 41 => ⟨S16x10000, .f32⟩
  | 42 => ⟨S16x10000, .f32⟩
  | 43 => ⟨S_, .f32⟩
  | 44 => ⟨S16x10000, .f32⟩
  | 45 => ⟨S16x10000, .f32⟩
  | 46 => ⟨S_, .i32⟩
  | 47 => ⟨S_, .i32⟩
  | 48 => ⟨S_, .f32⟩
  | 49 => ⟨S16x10000, .f32⟩
  | 50 => ⟨S16x10000, .f32⟩
  | 51 => ⟨S_, .f32⟩
  | 52 => ⟨S16x10000, .f32⟩
  | 53 => ⟨S16x10000, .f32⟩
  | 54 => ⟨S16x56x56x256, .f32⟩
  | 55 => ⟨S16x10000, .f32⟩
  | 56 => ⟨S16x10000, .i32⟩
  | 57 => ⟨S16x10000, .f32⟩
  | 58 => ⟨S16x10000, .i32⟩
  | 59 => ⟨S16x10000, .f32⟩
  | 60 => ⟨S16x10000, .i32⟩
  | 61 => ⟨S16x10000, .f32⟩
  | 62 => ⟨S16x10000, .i32⟩
  | 63 => ⟨S_, .i32⟩
  | 64 => ⟨S16x10000, .i32⟩
  | 65 => ⟨S16x10000, .i1⟩
  | 66 => ⟨S_, .i32⟩
  | 67 => ⟨S16x10000, .i32⟩
  | 68 => ⟨S16x10000, .i32⟩
  | 69 => ⟨S16x10000, .i32⟩
  | 70 => ⟨S_, .i32⟩
  | 71 => ⟨S16x10000, .i32⟩
  | 72 => ⟨S16x10000, .i1⟩
  | 73 => ⟨S_, .i32⟩
  | 74 => ⟨S16x10000, .i32⟩
  | 75 => ⟨S16x10000, .i32⟩
  | 76 => ⟨S16x10000, .i32⟩
  | 77 => ⟨S16x10000x1, .i32⟩
  | 78 => ⟨S16x10000x1, .i32⟩
  | 79 => ⟨S16x10000x2, .i32⟩
  | 80 => ⟨S16x10000x256, .f32⟩
  | 81 => ⟨S_, .i32⟩
  | 82 => ⟨S16x10000, .i32⟩
  | 83 => ⟨S16x10000, .i1⟩
  | 84 => ⟨S_, .i32⟩
  | 85 => ⟨S16x10000, .i32⟩
  | 86 => ⟨S16x10000, .i32⟩
  | 87 => ⟨S16x10000, .i32⟩
  | 88 => ⟨S_, .i32⟩
  | 89 => ⟨S16x10000, .i32⟩
  | 90 => ⟨S16x10000, .i1⟩
  | 91 => ⟨S_, .i32⟩
  | 92 => ⟨S16x10000, .i32⟩
  | 93 => ⟨S16x10000, .i32⟩
  | 94 => ⟨S16x10000, .i32⟩
  | 95 => ⟨S16x10000x1, .i32⟩
  | 96 => ⟨S16x10000x1, .i32⟩
  | 97 => ⟨S16x10000x2, .i32⟩
  | 98 => ⟨S16x10000x256, .f32⟩
  | 99 => ⟨S_, .i32⟩
  | 100 => ⟨S16x10000, .i32⟩
  | 101 => ⟨S16x10000, .i1⟩
  | 102 => ⟨S_, .i32⟩
  | 103 => ⟨S16x10000, .i32⟩
  | 104 => ⟨S16x10000, .i32⟩
  | 105 => ⟨S16x10000, .i32⟩
  | 106 => ⟨S_, .i32⟩
  | 107 => ⟨S16x10000, .i32⟩
  | 108 => ⟨S16x10000, .i1⟩
  | 109 => ⟨S_, .i32⟩
  | 110 => ⟨S16x10000, .i32⟩
  | 111 => ⟨S16x10000, .i32⟩
  | 112 => ⟨S16x10000, .i32⟩
  | 113 => ⟨S16x10000x1, .i32⟩
  | 114 => ⟨S16x10000x1, .i32⟩
  | 115 => ⟨S16x10000x2, .i32⟩
  | 116 => ⟨S16x10000x256, .f32⟩
  | 117 => ⟨S_, .i32⟩
  | 118 => ⟨S16x10000, .i32⟩
  | 119 => ⟨S16x10000, .i1⟩
  | 120 => ⟨S_, .i32⟩
  | 121 => ⟨S16x10000, .i32⟩
  | 122 => ⟨S16x10000, .i32⟩
  | 123 => ⟨S16x10000, .i32⟩
  | 124 => ⟨S_, .i32⟩
  | 125 => ⟨S16x10000, .i32⟩
  | 126 => ⟨S16x10000, .i1⟩
  | 127 => ⟨S_, .i32⟩
  | _ => ⟨S16x10000x3, .f32⟩

abbrev hbmTy0_1 (i : Nat) : BufTy := match i % 128 with
  | 0 => ⟨S16x10000, .i32⟩
  | 1 => ⟨S16x10000, .i32⟩
  | 2 => ⟨S16x10000, .i32⟩
  | 3 => ⟨S16x10000x1, .i32⟩
  | 4 => ⟨S16x10000x1, .i32⟩
  | 5 => ⟨S16x10000x2, .i32⟩
  | 6 => ⟨S16x10000x256, .f32⟩
  | 7 => ⟨S16x10000, .f32⟩
  | 8 => ⟨S16x10000, .f32⟩
  | 9 => ⟨S16x10000, .f32⟩
  | 10 => ⟨S16x10000, .f32⟩
  | 11 => ⟨S16x10000, .f32⟩
  | 12 => ⟨S16x10000, .f32⟩
  | 13 => ⟨S16x10000, .f32⟩
  | 14 => ⟨S16x10000x1, .f32⟩
  | 15 => ⟨S16x10000, .f32⟩
  | 16 => ⟨S16x10000, .f32⟩
  | 17 => ⟨S16x10000, .f32⟩
  | 18 => ⟨S16x10000x1, .f32⟩
  | 19 => ⟨S16x10000, .f32⟩
  | 20 => ⟨S16x10000, .f32⟩
  | 21 => ⟨S16x10000, .f32⟩
  | 22 => ⟨S16x10000x1, .f32⟩
  | 23 => ⟨S16x10000, .f32⟩
  | 24 => ⟨S16x10000, .f32⟩
  | 25 => ⟨S16x10000, .f32⟩
  | 26 => ⟨S16x10000x1, .f32⟩
  | 27 => ⟨S16x10000x256, .f32⟩
  | 28 => ⟨S16x10000x256, .f32⟩
  | 29 => ⟨S16x10000x256, .f32⟩
  | 30 => ⟨S16x10000x256, .f32⟩
  | 31 => ⟨S16x10000x256, .f32⟩
  | 32 => ⟨S16x10000x256, .f32⟩
  | 33 => ⟨S16x10000x256, .f32⟩
  | 34 => ⟨S16x10000x256, .f32⟩
  | 35 => ⟨S16x10000x256, .f32⟩
  | 36 => ⟨S16x10000x256, .f32⟩
  | 37 => ⟨S16x10000x256, .f32⟩
  | _ => ⟨S16x10000x3, .f32⟩

abbrev hbmTy (i : Nat) : BufTy := match i / 128 with
  | 0 => hbmTy0_0 i
  | 1 => hbmTy0_1 i
  | _ => ⟨S16x10000x3, .f32⟩

abbrev bufTy : (tb : Table) → Fin (tcTables nBuf tb) → BufTy
  | .hbm, ⟨i, _⟩ => hbmTy i
  | _, _ => ⟨S16x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_c_6 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_c_9 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_c_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_16 : Ref sig .tc := ⟨.hbm, 88, rfl⟩
abbrev main_v57 : Ref sig .tc := ⟨.hbm, 89, rfl⟩
abbrev main_v58 : Ref sig .tc := ⟨.hbm, 90, rfl⟩
abbrev main_c_17 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_18 : Ref sig .tc := ⟨.hbm, 99, rfl⟩
abbrev main_v66 : Ref sig .tc := ⟨.hbm, 100, rfl⟩
abbrev main_v67 : Ref sig .tc := ⟨.hbm, 101, rfl⟩
abbrev main_c_19 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_c_21 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_22 : Ref sig .tc := ⟨.hbm, 117, rfl⟩
abbrev main_v80 : Ref sig .tc := ⟨.hbm, 118, rfl⟩
abbrev main_v81 : Ref sig .tc := ⟨.hbm, 119, rfl⟩
abbrev main_c_23 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_24 : Ref sig .tc := ⟨.hbm, 124, rfl⟩
abbrev main_v85 : Ref sig .tc := ⟨.hbm, 125, rfl⟩
abbrev main_v86 : Ref sig .tc := ⟨.hbm, 126, rfl⟩
abbrev main_c_25 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  bcast_S_S16x10000x1 : S_.BroadcastsInDim S16x10000x1 (![] : Fin 0 → Fin S16x10000x1.rank)
  concatenates_S16x10000x3_S16x10000x1_S16x10000x4_d2 : Shape.Concatenates [S16x10000x3, S16x10000x1] S16x10000x4 2
  slices_S16x10000x4_S16x10000x1_0_0_0 : S16x10000x4.Slices ![0, 0, 0] S16x10000x1
  shapeCasts_S16x10000x1_S16x10000 : S16x10000x1.ShapeCasts S16x10000
  slices_S16x10000x4_S16x10000x1_0_0_3 : S16x10000x4.Slices ![0, 0, 3] S16x10000x1
  bcast_S_S16x10000 : S_.BroadcastsInDim S16x10000 (![] : Fin 0 → Fin S16x10000.rank)
  slices_S16x10000x4_S16x10000x1_0_0_1 : S16x10000x4.Slices ![0, 0, 1] S16x10000x1
  transposes_S16x256x56x56_S16x56x56x256_0_3_2_1 : S16x256x56x56.Transposes [0, 3, 2, 1] S16x56x56x256
  bcast_S16x10000_S16x10000x1_0_1 : S16x10000.BroadcastsInDim S16x10000x1 (![0, 1] : Fin 2 → Fin S16x10000x1.rank)
  concatenates_S16x10000x1_S16x10000x1_S16x10000x2_d2 : Shape.Concatenates [S16x10000x1, S16x10000x1] S16x10000x2 2
  bcast_S16x10000x1_S16x10000x256_0_1_2 : S16x10000x1.BroadcastsInDim S16x10000x256 (![0, 1, 2] : Fin 3 → Fin S16x10000x256.rank)
  dot_S16x10000x4_S16x4x4_S16x10000x4_2_2_1_1_0_0_wf : DotDims.WF S16x10000x4 S16x4x4 S16x10000x4 [2] [2] [1] [1] [0] [0]
  gather_S16x56x56x256_S16x10000x2_S16x10000x256_2_12_0_0_12_2_111256_wf : GatherDims.WF S16x56x56x256 S16x10000x2 S16x10000x256 [2] [1, 2] [0] [1, 2] [0] 2 ![1, 1, 1, 256]

variable [Facts₀]

def dot_S16x10000x4_S16x4x4_S16x10000x4_2_2_1_1_0_0 : DotDims S16x10000x4 S16x4x4 S16x10000x4 where
  lhsContracting := [2]
  rhsContracting := [2]
  lhsNonContracting := [1]
  rhsNonContracting := [1]
  lhsBatch := [0]
  rhsBatch := [0]
  wf := dot_S16x10000x4_S16x4x4_S16x10000x4_2_2_1_1_0_0_wf
def gather_S16x56x56x256_S16x10000x2_S16x10000x256_2_12_0_0_12_2_111256 : GatherDims S16x56x56x256 S16x10000x2 S16x10000x256 where
  offsetDims := [2]
  collapsedSliceDims := [1, 2]
  operandBatchingDims := [0]
  startIndicesBatchingDims := [0]
  startIndexMap := [1, 2]
  indexVectorDim := 2
  sliceSizes := ![1, 1, 1, 256]
  wf := gather_S16x56x56x256_S16x10000x2_S16x10000x256_2_12_0_0_12_2_111256_wf

class Facts : Prop extends Facts₀ where

variable [Facts]
-- ==== Proof.Spec.lean ====
/-
  Bilinear sampling on the extended reals: the scalar mathematics shared by the two programs.

  A point (its four homogeneous coordinates) is sent through a 4×4 matrix; the first two coordinates divided
  by the fourth, shifted and scaled into pixel units and CLIPPED into [0, 55] give a position (X, Y). Because of the
  clip, X and Y are real numbers in [0, 55] whatever the inputs were (an infinite or junk quotient is clipped too),
  so their floors and ceilings are integers in 0 … 55, the conversion to a 32-bit word and back loses nothing, and the
  four weights (⌈X⌉ - X)(⌈Y⌉ - Y), … are nonnegative reals. The sampled value is the weighted sum of the table's entries
  at the four corners. This file states that value (`tapSum`) and proves the facts that let a sum over ALL table rows
  against a row of weights that is zero off the four corners collapse to it (`sum_onehot4`): for nonnegative weights
  the extended reals distribute, so no finiteness of the table is needed.
-/
import Idealize.ShloMosaic.PureOps.Ideal
import Idealize.ShloMosaic.PureOps.Ideal.Laws
import Idealize.ShloMosaic.Lib.ValueIdx

noncomputable section

open scoped BigOperators

namespace Cert.Bilinear

open Idealize.ShloMosaic Idealize.ShloMosaic.ValueIdx

/-! ## The constants the two programs spell -/

/-- 1.0 -/
abbrev oneW : EReal := Ideal.ofBits .f32 0x3F800000#32
/-- 0.5 -/
abbrev halfW : EReal := Ideal.ofBits .f32 0x3F000000#32
/-- 2.0 -/
abbrev twoW : EReal := Ideal.ofBits .f32 0x40000000#32
/-- 56.0, the table's extent along each axis. -/
abbrev w56 : EReal := Ideal.ofBits .f32 0x42600000#32
/-- 0.0 -/
abbrev zeroW : EReal := Ideal.ofBits .f32 0x00000000#32

/-- A 32-bit word read as a signed integer, as a real. -/
def toF (i : BitVec 32) : EReal := ((i.toInt : ℝ) : EReal)

theorem halfW_eq : halfW = ((1 / 2 : ℝ) : EReal) := by
  show Ideal.ofBits .f32 0x3F000000#32 = _
  simp [Ideal.ofBits, Ideal.ieee, -EReal.coe_mul]; norm_num
theorem twoW_eq : twoW = ((2 : ℝ) : EReal) := by
  show Ideal.ofBits .f32 0x40000000#32 = _
  simp [Ideal.ofBits, Ideal.ieee, -EReal.coe_mul]; norm_num
theorem zeroW_eq : zeroW = 0 := Ideal.ofBits_zero_f32
theorem toF_zero : toF 0#32 = 0 := by
  unfold toF; simp
theorem toF_55 : toF 55#32 = ((55 : ℝ) : EReal) := by
  unfold toF
  have : (55#32 : BitVec 32).toInt = 55 := by decide
  rw [this]; norm_num

/-- Halving by the product with 0.5 is the quotient by 2.0, on every extended real. -/
theorem div_two_eq_mul_half (x : EReal) : Ideal.div x twoW = x * halfW := by
  rw [twoW_eq, halfW_eq, Ideal.div_coe (by norm_num : (2 : ℝ) ≠ 0)]

/-! ## The position -/

/-- Clipping into [0, 55]: the maximum with 0, then the minimum with 55. -/
def clip (v : EReal) : EReal := min (toF 55#32) (max zeroW v)

/-- The clip with its lower bound spelt as the integer 0 converted is the same function. -/
theorem clip_ref (v : EReal) : min (toF 55#32) (max (toF 0#32) v) = clip v := by
  unfold clip; rw [toF_zero, zeroW_eq]

/-- The horizontal position: ((c0 / c3 + 1) · ½) · 56, clipped. -/
def xPos (c0 c3 : EReal) : EReal := clip (((Ideal.div c0 c3 + oneW) * halfW) * w56)
/-- The vertical position: (1 - (c1 / c3 + 1) · ½) · 56, clipped. -/
def yPos (c1 c3 : EReal) : EReal := clip ((oneW - (Ideal.div c1 c3 + oneW) * halfW) * w56)

/-- A clipped value is a real number in [0, 55]. -/
theorem clip_real (v : EReal) : ∃ r : ℝ, 0 ≤ r ∧ r ≤ 55 ∧ clip v = (r : EReal) := by
  unfold clip
  rw [toF_55, zeroW_eq]
  induction v using EReal.rec with
  | bot =>
    refine ⟨0, le_refl _, by norm_num, ?_⟩
    rw [max_eq_left bot_le, min_eq_right (by exact_mod_cast (by norm_num : (0 : ℝ) ≤ 55))]; rfl
  | top =>
    refine ⟨55, by norm_num, le_refl _, ?_⟩
    rw [max_eq_right le_top, min_eq_left le_top]
  | coe r =>
    refine ⟨min 55 (max 0 r), le_min (by norm_num) (le_max_left _ _), min_le_left _ _, ?_⟩
    rw [EReal.coe_strictMono.monotone.map_min, EReal.coe_strictMono.monotone.map_max]; rfl

/-! ## Floors, ceilings and 32-bit words -/

/-- The floor of a position, converted to a 32-bit word. -/
def lo (X : EReal) : BitVec 32 := Ideal.fptosi 32 (Ideal.liftRound Int.floor X)
/-- The ceiling of a position, converted to a 32-bit word. -/
def hi (X : EReal) : BitVec 32 := Ideal.fptosi 32 (Ideal.liftRound Int.ceil X)

/-- A small natural number's word reads back as itself. -/
theorem toInt_ofNat_small (a : ℕ) (h : a ≤ 3135) : (BitVec.ofNat 32 a).toInt = a := by
  rw [BitVec.toInt_eq_toNat_cond, BitVec.toNat_ofNat]
  have e : a % 2 ^ 32 = a := Nat.mod_eq_of_lt (by omega)
  rw [e, if_pos (by omega)]

theorem toF_ofNat (a : ℕ) (h : a ≤ 55) : toF (BitVec.ofNat 32 a) = ((a : ℝ) : EReal) := by
  unfold toF; rw [toInt_ofNat_small a (by omega)]; norm_num

/-- An integer in 0 … 55, as a real, converts to its own word. -/
theorem fptosi_int (n : ℤ) (h0 : 0 ≤ n) (h1 : n ≤ 55) : Ideal.fptosi 32 ((n : ℝ) : EReal) = BitVec.ofNat 32 n.toNat := by
  unfold Ideal.fptosi
  rw [Ideal.toIntClamped_coe]
  have hn : (0 : ℝ) ≤ (n : ℝ) := by exact_mod_cast h0
  rw [if_pos hn, Int.floor_intCast]
  have e2 : ((2 ^ (32 - 1) : ℕ) : ℤ) = 2147483648 := by norm_num
  have e : max (-((2 ^ (32 - 1) : ℕ) : ℤ)) (min (((2 ^ (32 - 1) : ℕ) : ℤ) - 1) n) = n := by
    rw [e2]; omega
  rw [e]
  conv_lhs => rw [← Int.toNat_of_nonneg h0]
  exact BitVec.ofInt_natCast 32 n.toNat

/-- The floor of a real in [0, 55] is a natural number a ≤ 55 below it, and its word is a's. -/
theorem lo_coe (r : ℝ) (h0 : 0 ≤ r) (h1 : r ≤ 55) :
    ∃ a : ℕ, a ≤ 55 ∧ lo (r : EReal) = BitVec.ofNat 32 a ∧ (a : ℝ) ≤ r := by
  have hf0 : 0 ≤ ⌊r⌋ := Int.floor_nonneg.2 h0
  have hf1 : ⌊r⌋ ≤ 55 := by
    have : (⌊r⌋ : ℝ) ≤ 55 := le_trans (Int.floor_le r) h1
    exact_mod_cast this
  refine ⟨⌊r⌋.toNat, by omega, fptosi_int _ hf0 hf1, ?_⟩
  have e : ((⌊r⌋.toNat : ℕ) : ℝ) = (⌊r⌋ : ℝ) := by
    rw [← Int.cast_natCast, Int.toNat_of_nonneg hf0]
  rw [e]; exact Int.floor_le r

/-- The ceiling of a real in [0, 55] is a natural number b ≤ 55 above it, and its word is b's. -/
theorem hi_coe (r : ℝ) (h0 : 0 ≤ r) (h1 : r ≤ 55) :
    ∃ b : ℕ, b ≤ 55 ∧ hi (r : EReal) = BitVec.ofNat 32 b ∧ r ≤ (b : ℝ) := by
  have hc0 : 0 ≤ ⌈r⌉ := Int.ceil_nonneg h0
  have hc1 : ⌈r⌉ ≤ 55 := Int.ceil_le.2 (by exact_mod_cast h1)
  refine ⟨⌈r⌉.toNat, by omega, fptosi_int _ hc0 hc1, ?_⟩
  have e : ((⌈r⌉.toNat : ℕ) : ℝ) = (⌈r⌉ : ℝ) := by
    rw [← Int.cast_natCast, Int.toNat_of_nonneg hc0]
  rw [e]; exact Int.le_ceil r

/-! ## The four weights, the corners and the sampled value -/

/-- The weight of the corner (⌊X⌋, ⌊Y⌋). -/
def w11 (X Y : EReal) : EReal := (toF (hi X) - X) * (toF (hi Y) - Y)
/-- The weight of the corner (⌊X⌋, ⌈Y⌉). -/
def w12 (X Y : EReal) : EReal := (toF (hi X) - X) * (Y - toF (lo Y))
/-- The weight of the corner (⌈X⌉, ⌊Y⌋). -/
def w21 (X Y : EReal) : EReal := (X - toF (lo X)) * (toF (hi Y) - Y)
/-- The weight of the corner (⌈X⌉, ⌈Y⌉). -/
def w22 (X Y : EReal) : EReal := (X - toF (lo X)) * (Y - toF (lo Y))

/-- An index word with a negative value moved up by the axis's extent (indexing from the end); a nonnegative one kept. -/
def norm (i : BitVec 32) : BitVec 32 := Scalar.select (IntOp.cmpi .slt i 0#32) (IntOp.addi i 56#32) i
/-- The table row an index word reads: its signed value clamped into 0 … 55. -/
def row (i : BitVec 32) : Fin 56 := ⟨min i.toInt.toNat 55, by omega⟩

theorem norm_ofNat (a : ℕ) (h : a ≤ 55) : norm (BitVec.ofNat 32 a) = BitVec.ofNat 32 a := by
  unfold norm IntOp.cmpi
  have e : (BitVec.ofNat 32 a).slt 0#32 = false := by
    rw [BitVec.slt_eq_decide, toInt_ofNat_small a (by omega), BitVec.toInt_zero]
    exact decide_eq_false (by omega)
  simp only [e]
  exact select_zero _ _

theorem row_ofNat (a : ℕ) (h : a ≤ 55) : row (BitVec.ofNat 32 a) = ⟨a, by omega⟩ := by
  unfold row
  apply Fin.ext
  show min (BitVec.ofNat 32 a).toInt.toNat 55 = a
  rw [toInt_ofNat_small a (by omega), Int.toNat_natCast]; omega

/-- The sampled value at a position (X, Y) of a 56 × 56 table: the four corners' entries, weighted. -/
def taps (X Y : EReal) (T : Fin 56 → Fin 56 → EReal) : EReal :=
  ((w11 X Y * T (row (norm (lo X))) (row (norm (lo Y))) + w21 X Y * T (row (norm (hi X))) (row (norm (lo Y))))
    + w12 X Y * T (row (norm (lo X))) (row (norm (hi Y)))) + w22 X Y * T (row (norm (hi X))) (row (norm (hi Y)))

/-- Coordinate i of the transformed point: the row i of the matrix against the point. -/
def coord (p : Fin 4 → EReal) (A : Fin 4 → Fin 4 → EReal) (i : Fin 4) : EReal := ∑ j : Fin 4, p j * A i j

/-- The sampled value of a point p under the matrix A. -/
def tapSum (p : Fin 4 → EReal) (A : Fin 4 → Fin 4 → EReal) (T : Fin 56 → Fin 56 → EReal) : EReal :=
  taps (xPos (coord p A 0) (coord p A 3)) (yPos (coord p A 1) (coord p A 3)) T

/-! ## A row of weights that is zero off the four corners -/

/-- The flat table row of the corner (a, b): a · 56 + b, in 32-bit arithmetic. -/
def flat (a b : BitVec 32) : BitVec 32 := IntOp.addi (IntOp.muli a 56#32) b
/-- The weight w where the row number k is the corner's flat row i, zero elsewhere. -/
def sel (k : ℕ) (i : BitVec 32) (w : EReal) : EReal := Scalar.select (IntOp.cmpi .eq (BitVec.ofNat 32 k) i) w zeroW
/-- Entry k of the row of weights: the four corners' contributions added up (coinciding corners add). -/
def wrow (X Y : EReal) (k : ℕ) : EReal :=
  ((sel k (flat (lo X) (lo Y)) (w11 X Y) + sel k (flat (lo X) (hi Y)) (w12 X Y)) + sel k (flat (hi X) (lo Y)) (w21 X Y))
    + sel k (flat (hi X) (hi Y)) (w22 X Y)

theorem flat_ofNat (a b : ℕ) : flat (BitVec.ofNat 32 a) (BitVec.ofNat 32 b) = BitVec.ofNat 32 (a * 56 + b) := by
  unfold flat IntOp.addi IntOp.muli
  show BitVec.ofNat 32 a * BitVec.ofNat 32 56 + BitVec.ofNat 32 b = _
  rw [BitVec.ofNat_mul_ofNat, BitVec.ofNat_add_ofNat]

theorem sel_ofNat (k j : ℕ) (hk : k < 3136) (hj : j < 3136) (w : EReal) :
    sel k (BitVec.ofNat 32 j) w = if k = j then w else 0 := by
  unfold sel IntOp.cmpi
  by_cases h : k = j
  · subst h
    rw [if_pos rfl]
    simp [Scalar.select]
  · have e : (BitVec.ofNat 32 k == BitVec.ofNat 32 j) = false := by
      rw [beq_eq_false_iff_ne]; intro e
      have := congrArg BitVec.toNat e
      rw [BitVec.toNat_ofNat, BitVec.toNat_ofNat, Nat.mod_eq_of_lt (by omega), Nat.mod_eq_of_lt (by omega)] at this
      exact h this
    simp only [e, if_neg h]
    rw [zeroW_eq]
    exact select_zero _ _

/-- Over the extended reals: a sum against weights that are zero off four places is the four places' terms, when the
    weights are nonnegative (then the product distributes over their sums, whatever the other factor). -/
theorem sum_onehot4 {ι : Type*} [Fintype ι] [DecidableEq ι] (f : ι → EReal) (k1 k2 k3 k4 : ι) (w1 w2 w3 w4 : EReal)
    (h1 : 0 ≤ w1) (h2 : 0 ≤ w2) (h3 : 0 ≤ w3) (h4 : 0 ≤ w4) :
    ∑ k, ((((if k = k1 then w1 else 0) + (if k = k2 then w2 else 0)) + (if k = k3 then w3 else 0))
        + (if k = k4 then w4 else 0)) * f k
      = ((w1 * f k1 + w2 * f k2) + w3 * f k3) + w4 * f k4 := by
  have nn : ∀ (k j : ι) (w : EReal), 0 ≤ w → 0 ≤ (if k = j then w else 0) := fun k j w hw => by
    split
    · exact hw
    · exact le_refl _
  have e : ∀ k, ((((if k = k1 then w1 else 0) + (if k = k2 then w2 else 0)) + (if k = k3 then w3 else 0))
        + (if k = k4 then w4 else 0)) * f k
      = (((if k = k1 then w1 else 0) * f k + (if k = k2 then w2 else 0) * f k) + (if k = k3 then w3 else 0) * f k)
        + (if k = k4 then w4 else 0) * f k := fun k => by
    rw [EReal.right_distrib_of_nonneg (add_nonneg (add_nonneg (nn k k1 w1 h1) (nn k k2 w2 h2)) (nn k k3 w3 h3)) (nn k k4 w4 h4),
      EReal.right_distrib_of_nonneg (add_nonneg (nn k k1 w1 h1) (nn k k2 w2 h2)) (nn k k3 w3 h3),
      EReal.right_distrib_of_nonneg (nn k k1 w1 h1) (nn k k2 w2 h2)]
  simp only [e, Finset.sum_add_distrib, ite_mul, zero_mul, Finset.sum_ite_eq', Finset.mem_univ, if_true]

theorem sel_fin (k : Fin 3136) (j : ℕ) (hj : j < 3136) (w : EReal) :
    sel k.val (BitVec.ofNat 32 j) w = if k = ⟨j, hj⟩ then w else 0 := by
  rw [sel_ofNat k.val j k.isLt hj]
  by_cases h : k.val = j
  · rw [if_pos h, if_pos (Fin.ext h)]
  · rw [if_neg h, if_neg (fun e => h (congrArg Fin.val e))]

/-- The row of weights when the floors and ceilings are the words of naturals in 0 … 55: the four weights at the four
    flat rows, zero elsewhere. -/
theorem wrow_ofNat (X Y : EReal) (a b a' b' : ℕ) (ha : a ≤ 55) (hb : b ≤ 55) (ha' : a' ≤ 55) (hb' : b' ≤ 55)
    (hla : lo X = BitVec.ofNat 32 a) (hhb : hi X = BitVec.ofNat 32 b)
    (hla' : lo Y = BitVec.ofNat 32 a') (hhb' : hi Y = BitVec.ofNat 32 b') (k : Fin 3136) :
    wrow X Y k.val
      = (((if k = ⟨a * 56 + a', by omega⟩ then w11 X Y else 0) + (if k = ⟨a * 56 + b', by omega⟩ then w12 X Y else 0))
          + (if k = ⟨b * 56 + a', by omega⟩ then w21 X Y else 0)) + (if k = ⟨b * 56 + b', by omega⟩ then w22 X Y else 0) := by
  unfold wrow
  rw [hla, hhb, hla', hhb', flat_ofNat, flat_ofNat, flat_ofNat, flat_ofNat,
    sel_fin k _ (by omega), sel_fin k _ (by omega), sel_fin k _ (by omega), sel_fin k _ (by omega)]

/-- THE COLLAPSE. At a position whose coordinates are reals in [0, 55], the sum over all 3136 flat table rows of the row of
    weights against a column f of the table is the four-corner sampled value of the table (a, b) ↦ f (a · 56 + b). -/
theorem sum_wrow (X Y : EReal) (hX : ∃ r : ℝ, 0 ≤ r ∧ r ≤ 55 ∧ X = (r : EReal))
    (hY : ∃ r : ℝ, 0 ≤ r ∧ r ≤ 55 ∧ Y = (r : EReal)) (f : Fin 3136 → EReal) :
    ∑ k : Fin 3136, wrow X Y k.val * f k
      = taps X Y (fun a b => f ⟨a.val * 56 + b.val, by have := a.isLt; have := b.isLt; omega⟩) := by
  obtain ⟨r, hr0, hr1, rfl⟩ := hX
  obtain ⟨s, hs0, hs1, rfl⟩ := hY
  obtain ⟨a, ha, hla, har⟩ := lo_coe r hr0 hr1
  obtain ⟨b, hb, hhb, hbr⟩ := hi_coe r hr0 hr1
  obtain ⟨a', ha', hla', has⟩ := lo_coe s hs0 hs1
  obtain ⟨b', hb', hhb', hbs⟩ := hi_coe s hs0 hs1
  have n11 : 0 ≤ w11 (r : EReal) (s : EReal) := by
    unfold w11
    rw [hhb, hhb', toF_ofNat b hb, toF_ofNat b' hb', ← EReal.coe_sub, ← EReal.coe_sub, ← EReal.coe_mul]
    exact EReal.coe_nonneg.2 (mul_nonneg (sub_nonneg.2 hbr) (sub_nonneg.2 hbs))
  have n12 : 0 ≤ w12 (r : EReal) (s : EReal) := by
    unfold w12
    rw [hhb, hla', toF_ofNat b hb, toF_ofNat a' ha', ← EReal.coe_sub, ← EReal.coe_sub, ← EReal.coe_mul]
    exact EReal.coe_nonneg.2 (mul_nonneg (sub_nonneg.2 hbr) (sub_nonneg.2 has))
  have n21 : 0 ≤ w21 (r : EReal) (s : EReal) := by
    unfold w21
    rw [hla, hhb', toF_ofNat a ha, toF_ofNat b' hb', ← EReal.coe_sub, ← EReal.coe_sub, ← EReal.coe_mul]
    exact EReal.coe_nonneg.2 (mul_nonneg (sub_nonneg.2 har) (sub_nonneg.2 hbs))
  have n22 : 0 ≤ w22 (r : EReal) (s : EReal) := by
    unfold w22
    rw [hla, hla', toF_ofNat a ha, toF_ofNat a' ha', ← EReal.coe_sub, ← EReal.coe_sub, ← EReal.coe_mul]
    exact EReal.coe_nonneg.2 (mul_nonneg (sub_nonneg.2 har) (sub_nonneg.2 has))
  rw [Finset.sum_congr rfl (fun k _ => congrArg (· * f k) (wrow_ofNat (r : EReal) (s : EReal) a b a' b' ha hb ha' hb' hla hhb hla' hhb' k))]
  rw [sum_onehot4 f _ _ _ _ _ _ _ _ n11 n12 n21 n22]
  unfold taps
  rw [hla, hhb, hla', hhb', norm_ofNat a ha, norm_ofNat b hb, norm_ofNat a' ha', norm_ofNat b' hb',
    row_ofNat a ha, row_ofNat b hb, row_ofNat a' ha', row_ofNat b' hb']
  refine congrArg (fun z : EReal => z + _) ?_
  exact add_right_comm _ _ _

/-- The same at the position of a transformed point: the clip makes both coordinates reals in [0, 55]. -/
theorem sum_wrow_tapSum (p : Fin 4 → EReal) (A : Fin 4 → Fin 4 → EReal) (f : Fin 3136 → EReal) :
    ∑ k : Fin 3136, wrow (xPos (coord p A 0) (coord p A 3)) (yPos (coord p A 1) (coord p A 3)) k.val * f k
      = tapSum p A (fun a b => f ⟨a.val * 56 + b.val, by have := a.isLt; have := b.isLt; omega⟩) :=
  sum_wrow _ _ (clip_real _) (clip_real _) f

/-- The reference spells the horizontal position with a quotient by 2.0 and integer clip bounds: the same value. -/
theorem xPos_ref (c0 c3 : EReal) :
    min (toF 55#32) (max (toF 0#32) (Ideal.div (Ideal.div c0 c3 + oneW) twoW * w56)) = xPos c0 c3 := by
  rw [clip_ref, div_two_eq_mul_half]; rfl
/-- The same for the vertical position. -/
theorem yPos_ref (c1 c3 : EReal) :
    min (toF 55#32) (max (toF 0#32) ((oneW - Ideal.div (Ideal.div c1 c3 + oneW) twoW) * w56)) = yPos c1 c3 := by
  rw [clip_ref, div_two_eq_mul_half]; rfl

/-! ## The whole arrays -/

/-- A point's homogeneous coordinates: the three given ones, then 1. -/
def pt (v : (⟨3, ![16, 10000, 3]⟩ : Shape).Idx → EReal) (b : Fin 16) (n : Fin 10000) (j : Fin 4) : EReal :=
  if h : j.val < 3 then v (ix3 b n ⟨j.val, h⟩) else oneW

/-- Entry (b, n, c) of the result: point n of batch b, sent through batch b's matrix, samples channel c of batch b's
    image; the table row is the image's last axis (x), the table column its third (y). -/
def Gat (v : (⟨3, ![16, 10000, 3]⟩ : Shape).Idx → EReal) (img : (⟨4, ![16, 256, 56, 56]⟩ : Shape).Idx → EReal)
    (P : (⟨3, ![16, 4, 4]⟩ : Shape).Idx → EReal) (b : Fin 16) (n : Fin 10000) (c : Fin 256) : EReal :=
  tapSum (pt v b n) (fun r j => P (ix3 b r j)) (fun x y => img (ix4 b c y x))

/-- The result array. -/
def G (v : (⟨3, ![16, 10000, 3]⟩ : Shape).Idx → EReal) (img : (⟨4, ![16, 256, 56, 56]⟩ : Shape).Idx → EReal)
    (P : (⟨3, ![16, 4, 4]⟩ : Shape).Idx → EReal) : (⟨3, ![16, 10000, 256]⟩ : Shape).Idx → EReal :=
  fun i => Gat v img P (i 0) (i 1) (i 2)

theorem G_ix3 (v : (⟨3, ![16, 10000, 3]⟩ : Shape).Idx → EReal) (img : (⟨4, ![16, 256, 56, 56]⟩ : Shape).Idx → EReal)
    (P : (⟨3, ![16, 4, 4]⟩ : Shape).Idx → EReal) (b : Fin 16) (n : Fin 10000) (c : Fin 256) :
    G v img P (ix3 b n c) = Gat v img P b n c := rfl

end Cert.Bilinear

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibRank3.lean ====
/-
  Rank-3 layout operations read at an index, over any extents.

  A body that adds a row-indexed matrix, a column-indexed matrix and a vector along a common last axis forms the
  three-axis array `(p, q, k) ↦ A[p,k] + B[q,k] + v[k]` by reshaping each operand with unit axes and broadcasting it:
  `[a,b] → [a,1,b]`, `[a,b] → [1,a,b]` (in the library), `[c] → [1,1,c]`, then `[a,1,c]`, `[1,b,c]`, `[1,1,c]` `→ [a,b,c]`;
  a sum over the last axis brings it back to `[a,b]`. Each lemma reads one of these operations at an index given by
  its coordinates: a reshape keeps the row-major position, a broadcast reads coordinate `0` on a unit axis.
  Also the column form `[a,1] → [a]`.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    have huv : u.val * 1 + v.val = 0 := by omega
    rw [huv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- On the extended reals a sum over the LAST axis of an `[a, b, c]` array is, at `(p, q)`, the sum over `k` of the
    array at `(p, q, k)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src (funext fun ax => Fin.ext ?_)
  match ax with
  | ⟨0, _⟩ => rfl
  | ⟨1, _⟩ => rfl
  | ⟨2, _⟩ => rfl

end Cert.LibRank3

end
-- ==== Proof.LibTransDot.lean ====
/-
  A matrix product against a transposed right operand, read at an index, at the extended reals.

  For a rank-2 product `[M, K] · [N, K]ᵀ → [M, N]` (one contracted axis: the left operand's columns against the right
  operand's COLUMNS, no batch axis) accumulated into the zero block, the entry at `(p, e)` is the finite sum over the
  contracted coordinate `k` of `lhs (p, k) · rhs (e, k)`: row `p` of the left operand against row `e` of the right one.
  The product's dimension record enters only through four coordinate facts about its operand index maps (each a one-line
  computation for a literal record), so the lemma serves any such record at any extents.
-/
import Idealize.ShloMosaic.Lib.ValueIdx
import Idealize.ShloMosaic.PureOps.Ideal.Laws

noncomputable section

namespace Cert.LibTransDot

open Idealize.ShloMosaic Idealize.ShloMosaic.ValueIdx

/-- `[M, K] · [N, K]ᵀ` into the zero accumulator, at `(p, e)`: `∑ₖ lhs (p, k) · rhs (e, k)`. The hypotheses say that the
    record contracts ONE axis of extent `K`, that the left operand is read at (output row, contracted coordinate) and the
    right operand at (output column, contracted coordinate). -/
theorem matmul_zero_apply {M K N : ℕ} {φ₁ φ₂ : FTy}
    (D : DotDims ⟨2, ![M, K]⟩ ⟨2, ![N, K]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![M, K]⟩ φ₁) (rhs : FVec Ideal ⟨2, ![N, K]⟩ φ₂) (p : Fin M) (e : Fin N) :
    matmul D none lhs rhs (constant (F := Ideal) ⟨2, ![M, N]⟩ .f32 0x00000000#32) (ix2 p e)
      = ∑ k : Fin K, lhs (ix2 p k) * rhs (ix2 e k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 e k := funext fun a => Fin.ext (by
    match a with
    | ⟨0, _⟩ => exact hr0 _ _
    | ⟨1, _⟩ => exact (hr1 _ _).trans hk)
  rw [el, er]

end Cert.LibTransDot

end
-- ==== Proof.KernelPoint.lean ====
/-
  The kernel body's stored block, read at one entry.

  A grid point sees a block of 400 points (x0 : [1, 400, 3]), its batch's 4×4 matrix (x1 : [1, 4, 4]) and its batch's flat
  feature table (x2 : [1, 3136, 256], flat row a · 56 + b for the corner (a, b)). The body completes each point with a fourth
  coordinate 1, multiplies by the matrix (each output coordinate is a ROW of the matrix against the point), forms the clipped
  position, its floors and ceilings and the four weights, builds for each point a ROW OF WEIGHTS over the 3136 flat table
  rows that carries each weight at its corner's flat row and zero elsewhere (coinciding corners add), and multiplies that
  400 × 3136 matrix by the table. Entry (n, c) of the stored block is therefore the sum over all flat rows of the weight row
  against column c of the table, which the collapse of `Cert.Bilinear.sum_wrow_tapSum` turns into the four-corner sampled
  value. The changes of float format before the product are the identity on the extended reals.
-/
import proofs.«132830_j19799799234728_1_alg».proof.Proof.Gen.KernelIdeal.Frame
import proofs.«132830_j19799799234728_1_alg».proof.Proof.Spec
import proofs.«132830_j19799799234728_1_alg».proof.Proof.LibColumn
import proofs.«132830_j19799799234728_1_alg».proof.Proof.LibPlainDot
import proofs.«132830_j19799799234728_1_alg».proof.Proof.LibRank3
import proofs.«132830_j19799799234728_1_alg».proof.Proof.LibTransDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx Cert.Bilinear

/-- Point n of the block, completed with the coordinate 1. -/
def bpt (x0 : FVec Ideal S1x400x3 .f32) (n : Fin 400) (j : Fin 4) : EReal :=
  if h : j.val < 3 then x0 (ix3 (0 : Fin 1) n ⟨j.val, h⟩) else oneW
/-- The block's matrix. -/
def bmat (x1 : FVec Ideal S1x4x4 .f32) (r j : Fin 4) : EReal := x1 (ix3 (0 : Fin 1) r j)

/-- The point with its fourth coordinate appended, read at (n, j). -/
theorem point4_apply (v1 : FVec Ideal S400x3 .f32) (v6 : FVec Ideal S400x1 .f32) (n : Fin 400) (j : Fin 4) :
    concatenate S400x4 1 [⟨S400x3, v1⟩, ⟨S400x1, v6⟩] concatenates_S400x3_S400x1_S400x4_d1 (ix2 n j)
      = if h : j.val < 3 then v1 (ix2 n ⟨j.val, h⟩) else v6 (ix2 n (0 : Fin 1)) := by
  by_cases h : j.val < 3
  · rw [dif_pos h]
    refine concatenate_pair_apply_left (1 : Fin 2) v1 v6 concatenates_S400x3_S400x1_S400x4_d1 (ix2 n j) rfl (ix2 n ⟨j.val, h⟩) fun b => ?_
    match b with
    | ⟨0, _⟩ => rfl
    | ⟨1, _⟩ => rfl
  · rw [dif_neg h]
    refine concatenate_pair_apply_right (1 : Fin 2) v1 v6 concatenates_S400x3_S400x1_S400x4_d1 (ix2 n j) rfl rfl (ix2 n (0 : Fin 1)) (fun b hb => ?_) ?_
    · match b with
      | ⟨0, _⟩ => rfl
      | ⟨1, _⟩ => exact absurd rfl hb
    · show 0 + 3 = j.val
      have := j.isLt; omega

/-! ## The transformed point -/

/-- The first product's record: a point's four coordinates against the matrix's columns. -/
abbrev D1 : DotDims S400x4 S4x4 S400x4 := dot_S400x4_S4x4_S400x4_1_1_0_0_n_n

theorem D1_l0 (i : S400x4.Idx) (q : D1.contr.Idx) : (D1.lhsIdx i q 0).val = (i 0).val := by
  unfold DotDims.lhsIdx
  rw [dif_neg (show ¬(0 : Fin S400x4.rank) ∈ D1.lhsBatch by decide), dif_pos (show (0 : Fin S400x4.rank) ∈ D1.lhsNonContracting by decide)]
  rfl
theorem D1_l1 (i : S400x4.Idx) (q : D1.contr.Idx) : (D1.lhsIdx i q 1).val = (q ⟨0, by decide⟩).val :=
  D1.lhsIdx_val_of_single rfl i q
theorem D1_r0 (i : S400x4.Idx) (q : D1.contr.Idx) : (D1.rhsIdx i q 0).val = (i 1).val := by
  unfold DotDims.rhsIdx
  rw [dif_neg (show ¬(0 : Fin S4x4.rank) ∈ D1.rhsBatch by decide), dif_pos (show (0 : Fin S4x4.rank) ∈ D1.rhsNonContracting by decide)]
  rfl
theorem D1_r1 (i : S400x4.Idx) (q : D1.contr.Idx) : (D1.rhsIdx i q 1).val = (q ⟨0, by decide⟩).val :=
  D1.rhsIdx_val_of_single rfl i q

/-- Coordinate i of the transformed point n: row i of the matrix against the completed point. -/
theorem pay3_apply (x0 : FVec Ideal S1x400x3 .f32) (x1 : FVec Ideal S1x4x4 .f32) (n : Fin 400) (i : Fin 4) :
    k0_pay3 (F := Ideal) x0 x1 (ix2 n i) = coord (bpt x0 n) (bmat x1) i := by
  unfold k0_pay3
  refine (Cert.LibTransDot.matmul_zero_apply D1 rfl rfl D1_l0 D1_l1 D1_r0 D1_r1 _ _ n i).trans ?_
  unfold coord
  refine Finset.sum_congr rfl fun k _ => ?_
  rw [point4_apply]
  congr 1
  · unfold bpt
    by_cases h : k.val < 3
    · rw [dif_pos h, dif_pos h]
      exact shapeCast_1ab_ab_apply x0 _ n ⟨k.val, h⟩
    · rw [dif_neg h, dif_neg h]
      rfl
  · exact shapeCast_1ab_ab_apply x1 _ i k

/-- Column o of the transformed points, as a vector of 400 entries, read at n. -/
theorem col_apply (X : FVec Ideal S400x4 .f32) (o : Fin 4) (hs : S400x4.Slices ![0, o.val] S400x1)
    (hc : S400x1.ShapeCasts S400) (n : Fin 400) :
    shapeCast S400 (extractStridedSlice S400x1 ![0, o.val] X hs) hc (ix1 n) = X (ix2 n o) := by
  refine (Cert.LibRank3.shapeCast_a1_a_apply _ hc n).trans ?_
  exact slice2_axis1_apply o.val X hs n (0 : Fin 1) o rfl

/-! ## The position -/

/-- The horizontal position of point n. -/
theorem pay4_apply (x0 : FVec Ideal S1x400x3 .f32) (x1 : FVec Ideal S1x4x4 .f32) (n : Fin 400) :
    k0_pay4 (F := Ideal) x0 x1 (ix1 n) = xPos (coord (bpt x0 n) (bmat x1) 0) (coord (bpt x0 n) (bmat x1) 3) := by
  rw [← pay3_apply x0 x1 n 0, ← pay3_apply x0 x1 n 3,
    ← col_apply (k0_pay3 (F := Ideal) x0 x1) 0 slices_S400x4_o0_0_S400x1 shapeCasts_S400x1_S400 n,
    ← col_apply (k0_pay3 (F := Ideal) x0 x1) 3 slices_S400x4_o0_3_S400x1 shapeCasts_S400x1_S400 n]
  rfl

/-- The vertical position of point n, before the clip. -/
theorem pay5_apply (x0 : FVec Ideal S1x400x3 .f32) (x1 : FVec Ideal S1x4x4 .f32) (n : Fin 400) :
    k0_pay6 (F := Ideal) (k0_pay5 (F := Ideal) x0 x1) (ix1 n)
      = yPos (coord (bpt x0 n) (bmat x1) 1) (coord (bpt x0 n) (bmat x1) 3) := by
  rw [← pay3_apply x0 x1 n 1, ← pay3_apply x0 x1 n 3,
    ← col_apply (k0_pay3 (F := Ideal) x0 x1) 1 slices_S400x4_o0_1_S400x1 shapeCasts_S400x1_S400 n,
    ← col_apply (k0_pay3 (F := Ideal) x0 x1) 3 slices_S400x4_o0_3_S400x1 shapeCasts_S400x1_S400 n]
  rfl

/-! ## The row of weights -/

/-- A vector of 400 entries kept as a column and spread over the 3136 lanes reads its entry n everywhere in row n. -/
theorem spread_apply {α : Type} (v : S400.Idx → α) (n : Fin 400) (k : Fin 3136) :
    broadcastTo S400x3136 (shapeCast S400x1 v shapeCasts_S400_S400x1) broadcasts_S400x1_S400x3136 (ix2 n k) = v (ix1 n) :=
  (Cert.LibColumn.broadcastTo_a1_ab_apply _ broadcasts_S400x1_S400x3136 n k).trans
    (Cert.LibColumn.shapeCast_a_a1_apply v shapeCasts_S400_S400x1 n 0)

/-- The same through one more cast of the column to its own shape. -/
theorem spread2_apply {α : Type} (v : S400.Idx → α) (n : Fin 400) (k : Fin 3136) :
    broadcastTo S400x3136 (shapeCast S400x1 (shapeCast S400x1 v shapeCasts_S400_S400x1) shapeCasts_S400x1_S400x1)
      broadcasts_S400x1_S400x3136 (ix2 n k) = v (ix1 n) := by
  rw [shapeCast_self]; exact spread_apply v n k

/-- The lane counter reads the lane's number. -/
theorem lane_apply (n : Fin 400) (k : Fin 3136) :
    iota .tc S400x3136 32 [1] iota_S400x3136_d1_w32 (ix2 n k) = BitVec.ofNat 32 k.val :=
  iota_single_apply .tc S400x3136 32 1 iota_S400x3136_d1_w32 (ix2 n k)

/-- One corner's contribution to the weight matrix: in row n, the point's weight where the lane is the point's flat
    corner row, zero elsewhere. -/
theorem onehot_apply (idx : IVec S400 32) (w : FVec Ideal S400 .f32) (n : Fin 400) (k : Fin 3136) :
    select (cmpi .eq (iota .tc S400x3136 32 [1] iota_S400x3136_d1_w32)
        (broadcastTo S400x3136 (shapeCast S400x1 idx shapeCasts_S400_S400x1) broadcasts_S400x1_S400x3136))
      (broadcastTo S400x3136 (shapeCast S400x1 (shapeCast S400x1 w shapeCasts_S400_S400x1) shapeCasts_S400x1_S400x1)
        broadcasts_S400x1_S400x3136)
      (broadcast S400x3136 (Scalar.ofBits (F := Ideal) .f32 0x00000000#32)) (ix2 n k)
      = sel k.val (idx (ix1 n)) (w (ix1 n)) := by
  show Scalar.select (IntOp.cmpi .eq (iota .tc S400x3136 32 [1] iota_S400x3136_d1_w32 (ix2 n k))
        (broadcastTo S400x3136 (shapeCast S400x1 idx shapeCasts_S400_S400x1) broadcasts_S400x1_S400x3136 (ix2 n k)))
      (broadcastTo S400x3136 (shapeCast S400x1 (shapeCast S400x1 w shapeCasts_S400_S400x1) shapeCasts_S400x1_S400x1)
        broadcasts_S400x1_S400x3136 (ix2 n k)) zeroW = _
  rw [lane_apply, spread_apply, spread2_apply]
  rfl

/-! ## The product with the table -/

/-- The second product's record: the weight matrix against the flat table. -/
abbrev D2 : DotDims S400x3136 S3136x256 S400x256 := dot_S400x3136_S3136x256_S400x256_1_0_0_1_n_n

theorem D2_l0 (i : S400x256.Idx) (q : D2.contr.Idx) : (D2.lhsIdx i q 0).val = (i 0).val := by
  unfold DotDims.lhsIdx
  rw [dif_neg (show ¬(0 : Fin S400x3136.rank) ∈ D2.lhsBatch by decide), dif_pos (show (0 : Fin S400x3136.rank) ∈ D2.lhsNonContracting by decide)]
  rfl
theorem D2_l1 (i : S400x256.Idx) (q : D2.contr.Idx) : (D2.lhsIdx i q 1).val = (q ⟨0, by decide⟩).val :=
  D2.lhsIdx_val_of_single rfl i q
theorem D2_r0 (i : S400x256.Idx) (q : D2.contr.Idx) : (D2.rhsIdx i q 0).val = (q ⟨0, by decide⟩).val :=
  D2.rhsIdx_val_of_single rfl i q
theorem D2_r1 (i : S400x256.Idx) (q : D2.contr.Idx) : (D2.rhsIdx i q 1).val = (i 1).val := by
  unfold DotDims.rhsIdx
  rw [dif_neg (show ¬(1 : Fin S3136x256.rank) ∈ D2.rhsBatch by decide), dif_pos (show (1 : Fin S3136x256.rank) ∈ D2.rhsNonContracting by decide)]
  rfl

/-- The stored block at (0, n, c), for any positions v35 (horizontal) and v37 (vertical, before its clip) and any table v5:
    the sum over the 3136 flat rows of point n's row of weights against column c of the table. -/
theorem wsum_apply (v5 : FVec Ideal S3136x256 .f32) (v35 v37 : FVec Ideal S400 .f32) (n : Fin 400) (c : Fin 256) :
    k0_pay1 (F := Ideal) v5 (k0_pay15 v35 v37) (k0_pay16 v35 v37) (k0_pay17 v35 v37) (k0_pay18 v35 v37) (k0_pay19 v35 v37)
        (iota .tc S400x3136 32 [1] iota_S400x3136_d1_w32) (k0_pay20 v35 v37) (k0_pay21 v35 v37) (ix3 (0 : Fin 1) n c)
      = ∑ k : Fin 3136, wrow (v35 (ix1 n)) (k0_pay6 (F := Ideal) v37 (ix1 n)) k.val * v5 (ix2 k c) := by
  unfold k0_pay1
  refine (shapeCast_ab_1ab_apply _ shapeCasts_S400x256_S1x400x256 (0 : Fin 1) n c).trans ?_
  refine (Cert.LibPlainDot.matmul_zero_apply D2 rfl rfl D2_l0 D2_l1 D2_r0 D2_r1 _ _ n c).trans ?_
  refine Finset.sum_congr rfl fun k _ => ?_
  refine congrArg (fun z : EReal => z * v5 (ix2 k c)) ?_
  unfold k0_pay20 k0_pay21 k0_pay18 k0_pay19
  exact congrArg₂ (fun a b : EReal => a + b)
    (congrArg₂ (fun a b : EReal => a + b)
      (congrArg₂ (fun a b : EReal => a + b) (onehot_apply _ _ n k) (onehot_apply _ _ n k))
      (onehot_apply _ _ n k))
    (onehot_apply _ _ n k)

/-! ## The stored block at an entry -/

theorem hz3 : (![0, 0, 0] : Fin 3 → Nat) = fun _ => 0 := funext fun a => by fin_cases a <;> rfl

/-- THE STORED BLOCK AT (0, n, c): the four-corner sampled value, at point n's position, of column c of the block's
    table read as the 56 × 56 table (a, b) ↦ flat row a · 56 + b. -/
theorem out_apply (x0 : Vec Ideal S1x400x3 .f32) (x1 : Vec Ideal S1x4x4 .f32) (x2 : Vec Ideal S1x3136x256 .f32)
    (n : Fin 400) (c : Fin 256) :
    out0_3 (F := Ideal) x0 x1 x2 (ix3 (0 : Fin 1) n c)
      = tapSum (bpt x0 n) (bmat x1)
          (fun a b => x2 (ix3 (0 : Fin 1) ⟨a.val * 56 + b.val, by have := a.isLt; have := b.isLt; omega⟩ c)) := by
  unfold out0_3
  rw [View.canon_unit_zero hz3]
  simp only [View.ld_unit_zero (S := S1x400x3) hz3, View.ld_unit_zero (S := S1x4x4) hz3,
    View.ld_unit_zero (S := S1x3136x256) hz3]
  rw [wsum_apply, pay4_apply, pay5_apply]
  refine Eq.trans ?_ (sum_wrow_tapSum (bpt x0 n) (bmat x1) (fun k => x2 (ix3 (0 : Fin 1) k c)))
  refine Finset.sum_congr rfl fun k _ => ?_
  rw [show k0_pay2 (F := Ideal) x2 (ix2 k c) = x2 (ix3 (0 : Fin 1) k c) from shapeCast_1ab_ab_apply x2 _ k c]

end Cert.KernelIdeal.Point

end
-- ==== Proof.KernelValue.lean ====
/-
  From the blocks the grid points write to the whole result array.

  The grid has 16 × 25 points; point t = (b, s) works on batch b = t / 25 and on the points 400 s … 400 s + 399 of that batch.
  Its block of the points array is rows 400 s … of batch b, its matrix is batch b's, its table is batch b's slab of the flat
  feature table, and the block it writes back is rows 400 s … of batch b of the result. The flat feature table is the image
  with its axes reordered to (batch, x, y, channel) and the (x, y) pair flattened to x · 56 + y, made by the two host
  operations before the region; so flat row a · 56 + b of channel c is the image at (channel c, y = b, x = a).
  With the stored block read at an entry (`Cert.KernelIdeal.Point.out_apply`) this makes every written block the restriction of
  ONE function of the three argument arrays, `Cert.Bilinear.G`; the blocks cover the result array, so after the run the
  result array is G of the arguments.
-/
import proofs.«132830_j19799799234728_1_alg».proof.Proof.Gen.KernelIdeal.Value
import proofs.«132830_j19799799234728_1_alg».proof.Proof.Spec
import proofs.«132830_j19799799234728_1_alg».proof.Proof.KernelPoint
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.KernelIdeal.Point Cert.Bilinear

variable (m : (ℓ : Loc nD τ sig) → Buf (Elt Ideal) ℓ) (ρ : Dev nD → PrngReg)

/-! ## The flat feature table the region finds -/

/-- The flat table is the image transposed to (batch, x, y, channel) and reshaped. -/
theorem V_v1 (c : Dev nD) : (V m c main_v1 : S16x3136x256.Idx → EReal)
    = shapeCast S16x3136x256 (transpose S16x56x56x256 [0, 3, 2, 1] (m ((c : Thread nD τ).loc main_arg1) : S16x256x56x56.Idx → EReal)
        transposes_S16x256x56x56_S16x56x56x256_0_3_2_1) shapeCasts_S16x56x56x256_S16x3136x256 := by
  dsimp only [Gen.V, Gen.hostOps0]
  after_results
  rfl

/-- Flat row a · 56 + b of channel ch of batch bt is the image at (bt, ch, y = b, x = a). -/
theorem V_v1_apply (c : Dev nD) (bt : Fin 16) (a b : Fin 56) (ch : Fin 256) (k : Fin 3136) (hk : k.val = a.val * 56 + b.val) :
    (V m c main_v1 : S16x3136x256.Idx → EReal) (ix3 bt k ch)
      = (m ((c : Thread nD τ).loc main_arg1) : S16x256x56x56.Idx → EReal) (ix4 bt ch b a) := by
  rw [V_v1]
  refine (shapeCast_apply _ shapeCasts_S16x56x56x256_S16x3136x256 (ix3 bt k ch) (ix4 bt a b ch) ?_).trans ?_
  · rw [Shape.rowMajor_val_four, Shape.rowMajor_val_three]
    show ((bt.val * 56 + a.val) * 56 + b.val) * 256 + ch.val = (bt.val * 3136 + k.val) * 256 + ch.val
    rw [hk]; ring
  · refine transpose_apply [0, 3, 2, 1] _ transposes_S16x256x56x56_S16x56x56x256_0_3_2_1 (ix4 bt a b ch) (ix4 bt ch b a) fun ax => ?_
    match ax with
    | ⟨0, _⟩ => rfl
    | ⟨1, _⟩ => rfl
    | ⟨2, _⟩ => rfl
    | ⟨3, _⟩ => rfl

/-! ## The blocks -/

/-- The windows' block indices in closed form, decided over the grid: point t is batch t / 25, point-tile t % 25. -/
theorem idx_facts : ∀ t : Fin cfg0.N,
    win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = 0 ∧ win0_1.index t (2 : Fin 3) = 0
    ∧ win0_2.index t (0 : Fin 3) = t.val / 25 ∧ win0_2.index t (1 : Fin 3) = 0 ∧ win0_2.index t (2 : Fin 3) = 0
    ∧ win0_3.index t (0 : Fin 3) = t.val / 25 ∧ win0_3.index t (1 : Fin 3) = t.val % 25 ∧ win0_3.index t (2 : Fin 3) = 0 :=
  (by decide +kernel : ∀ t : Fin grid0.N, _)

/-- The points block at point t is rows 400 (t % 25) … of batch t / 25 of the points array. -/
theorem iblk0_apply (c : Dev nD) (t : Fin cfg0.N) (x : S1x400x3.Idx) (k : S16x10000x3.Idx)
    (hk0 : (k 0).val = t.val / 25 + (x 0).val) (hk1 : (k 1).val = t.val % 25 * 400 + (x 1).val) (hk2 : (k 2).val = (x 2).val) :
    (iblk m c 0 t : Vec Ideal S1x400x3 .f32) x = (m ((c : Thread nD τ).loc main_arg0) : S16x10000x3.Idx → EReal) k := by
  obtain ⟨e0, e1, e2, -⟩ := idx_facts t
  unfold iblk
  rw [View.read_apply]
  refine (congrFun (V_main_arg0 m c) _).trans ?_
  congr 1
  funext a
  apply Fin.ext
  match a with
  | ⟨0, _⟩ => show win0_0.index t (0 : Fin 3) * 1 + 1 * (x 0).val = (k 0).val; omega
  | ⟨1, _⟩ => show win0_0.index t (1 : Fin 3) * 400 + 1 * (x 1).val = (k 1).val; omega
  | ⟨2, _⟩ => show win0_0.index t (2 : Fin 3) * 3 + 1 * (x 2).val = (k 2).val; omega

/-- The matrix block at point t is batch t / 25's matrix. -/
theorem iblk1_apply (c : Dev nD) (t : Fin cfg0.N) (x : S1x4x4.Idx) (k : S16x4x4.Idx)
    (hk0 : (k 0).val = t.val / 25 + (x 0).val) (hk1 : (k 1).val = (x 1).val) (hk2 : (k 2).val = (x 2).val) :
    (iblk m c 1 t : Vec Ideal S1x4x4 .f32) x = (m ((c : Thread nD τ).loc main_arg2) : S16x4x4.Idx → EReal) k := by
  obtain ⟨-, -, -, e0, e1, e2, -⟩ := idx_facts t
  unfold iblk
  rw [View.read_apply]
  refine (congrFun (V_main_arg2 m c) _).trans ?_
  congr 1
  funext a
  apply Fin.ext
  match a with
  | ⟨0, _⟩ => show win0_1.index t (0 : Fin 3) * 1 + 1 * (x 0).val = (k 0).val; omega
  | ⟨1, _⟩ => show win0_1.index t (1 : Fin 3) * 4 + 1 * (x 1).val = (k 1).val; omega
  | ⟨2, _⟩ => show win0_1.index t (2 : Fin 3) * 4 + 1 * (x 2).val = (k 2).val; omega

/-- The table block at point t is batch t / 25's slab of the flat table. -/
theorem iblk2_apply (c : Dev nD) (t : Fin cfg0.N) (x : S1x3136x256.Idx) (k : S16x3136x256.Idx)
    (hk0 : (k 0).val = t.val / 25 + (x 0).val) (hk1 : (k 1).val = (x 1).val) (hk2 : (k 2).val = (x 2).val) :
    (iblk m c 2 t : Vec Ideal S1x3136x256 .f32) x = (V m c main_v1 : S16x3136x256.Idx → EReal) k := by
  obtain ⟨-, -, -, -, -, -, e0, e1, e2, -⟩ := idx_facts t
  unfold iblk
  rw [View.read_apply]
  show V m c main_v1 _ = V m c main_v1 _
  congr 1
  funext a
  apply Fin.ext
  match a with
  | ⟨0, _⟩ => show win0_2.index t (0 : Fin 3) * 1 + 1 * (x 0).val = (k 0).val; omega
  | ⟨1, _⟩ => show win0_2.index t (1 : Fin 3) * 3136 + 1 * (x 1).val = (k 1).val; omega
  | ⟨2, _⟩ => show win0_2.index t (2 : Fin 3) * 256 + 1 * (x 2).val = (k 2).val; omega

/-! ## What a point writes back -/

/-- Entry y of the block point t stores is G of the arguments at the array index that entry sits at. -/
theorem point_eq (c : Dev nD) (t : Fin cfg0.N) (y : S1x400x256.Idx) (i : S16x10000x256.Idx)
    (h0 : (i 0).val = t.val / 25) (h1 : (i 1).val = t.val % 25 * 400 + (y 1).val) (h2 : (i 2).val = (y 2).val) :
    out0_3 (F := Ideal) (iblk m c 0 t) (iblk m c 1 t) (iblk m c 2 t) y
      = G (m ((c : Thread nD τ).loc main_arg0)) (m ((c : Thread nD τ).loc main_arg1)) (m ((c : Thread nD τ).loc main_arg2)) i := by
  obtain ⟨u, n, cc, rfl⟩ : ∃ (u : Fin 1) (n : Fin 400) (cc : Fin 256), y = ix3 u n cc := ⟨y 0, y 1, y 2, eq_ix3 y⟩
  obtain ⟨b, p, cc', rfl⟩ : ∃ (b : Fin 16) (p : Fin 10000) (cc' : Fin 256), i = ix3 b p cc' := ⟨i 0, i 1, i 2, eq_ix3 i⟩
  obtain rfl : u = 0 := Subsingleton.elim _ _
  have hb : b.val = t.val / 25 := h0
  have hp : p.val = t.val % 25 * 400 + n.val := h1
  obtain rfl : cc' = cc := Fin.ext h2
  refine (out_apply (iblk m c 0 t) (iblk m c 1 t) (iblk m c 2 t) n cc').trans ?_
  rw [G_ix3]
  unfold Gat
  have e0 : bpt (iblk m c 0 t) n = pt (m ((c : Thread nD τ).loc main_arg0)) b p := by
    funext j
    unfold bpt pt
    by_cases hj : j.val < 3
    · rw [dif_pos hj, dif_pos hj]
      exact iblk0_apply m c t _ _ (by show b.val = t.val / 25 + 0; omega) hp rfl
    · rw [dif_neg hj, dif_neg hj]
  have e1 : bmat (iblk m c 1 t) = fun r j => (m ((c : Thread nD τ).loc main_arg2) : S16x4x4.Idx → EReal) (ix3 b r j) := by
    funext r j
    exact iblk1_apply m c t _ _ (by show b.val = t.val / 25 + 0; omega) rfl rfl
  have e2 : (fun (a b' : Fin 56) => (iblk m c 2 t : Vec Ideal S1x3136x256 .f32)
        (ix3 (0 : Fin 1) ⟨a.val * 56 + b'.val, by have := a.isLt; have := b'.isLt; omega⟩ cc'))
      = fun x y => (m ((c : Thread nD τ).loc main_arg1) : S16x256x56x56.Idx → EReal) (ix4 b cc' y x) := by
    funext a b'
    refine (iblk2_apply m c t _ (ix3 b ⟨a.val * 56 + b'.val, by have := a.isLt; have := b'.isLt; omega⟩ cc')
      (by show b.val = t.val / 25 + 0; omega) rfl rfl).trans ?_
    exact V_v1_apply m c b a b' cc' _ rfl
  rw [e0, e1, e2]

/-- WHAT POINT t WRITES BACK is block t of G of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [flushed3]
  obtain ⟨-, -, -, -, -, -, -, -, -, e0, e1, e2⟩ := idx_facts t
  funext y
  show out0_3 (F := Ideal) (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y)
  have hy0 : (y 0).val < 1 := (y 0).isLt
  refine point_eq m c t y _ ?_ ?_ ?_
  · show win0_3.index t (0 : Fin 3) * 1 + 1 * (y 0).val = t.val / 25; omega
  · show win0_3.index t (1 : Fin 3) * 400 + 1 * (y 1).val = t.val % 25 * 400 + (y 1).val; omega
  · show win0_3.index t (2 : Fin 3) * 256 + 1 * (y 2).val = (y 2).val; omega

/-! ## The cover and the whole array -/

/-- An index of the result array is in point t's block iff each coordinate is in the block's range on its axis. -/
theorem mem_blk (t : Fin cfg0.N) (i : S16x10000x256.Idx) :
    i ∈ ((cfg0.win 3).blk t).view.set ↔ ∀ a : Fin 3, win0_3.index t a * S1x400x256.size a ≤ (i a).val
      ∧ (i a).val < win0_3.index t a * S1x400x256.size a + S1x400x256.size a := by
  show i ∈ ((View.whole main_v2).slice (win0_3.rect t)).set ↔ _
  rw [View.set_slice_whole, Rect.mem_set_unit]
  exact Iff.rfl

/-- Every index (b, p, c) of the result array is in the block of the point (b, p / 400). -/
theorem cover (i : S16x10000x256.Idx) : ∃ t : Fin cfg0.N, (cfg0.win 3).flush t = true ∧ i ∈ ((cfg0.win 3).blk t).view.set := by
  have hi0 : (i 0).val < 16 := (i 0).isLt
  have hi1 : (i 1).val < 10000 := (i 1).isLt
  have hi2 : (i 2).val < 256 := (i 2).isLt
  have hN : cfg0.N = 400 := N_0
  have hlt : (i 0).val * 25 + (i 1).val / 400 < cfg0.N := by rw [hN]; omega
  obtain ⟨-, -, -, -, -, -, -, -, -, e0, e1, e2⟩ := idx_facts ⟨(i 0).val * 25 + (i 1).val / 400, hlt⟩
  have e0' : win0_3.index ⟨(i 0).val * 25 + (i 1).val / 400, hlt⟩ (0 : Fin 3) = ((i 0).val * 25 + (i 1).val / 400) / 25 := e0
  have e1' : win0_3.index ⟨(i 0).val * 25 + (i 1).val / 400, hlt⟩ (1 : Fin 3) = ((i 0).val * 25 + (i 1).val / 400) % 25 := e1
  refine ⟨⟨(i 0).val * 25 + (i 1).val / 400, hlt⟩, flush0_3 _, ?_⟩
  rw [mem_blk]
  intro a
  match a with
  | ⟨0, _⟩ =>
    show win0_3.index ⟨(i 0).val * 25 + (i 1).val / 400, hlt⟩ (0 : Fin 3) * 1 ≤ (i 0).val
      ∧ (i 0).val < win0_3.index ⟨(i 0).val * 25 + (i 1).val / 400, hlt⟩ (0 : Fin 3) * 1 + 1
    omega
  | ⟨1, _⟩ =>
    show win0_3.index ⟨(i 0).val * 25 + (i 1).val / 400, hlt⟩ (1 : Fin 3) * 400 ≤ (i 1).val
      ∧ (i 1).val < win0_3.index ⟨(i 0).val * 25 + (i 1).val / 400, hlt⟩ (1 : Fin 3) * 400 + 400
    omega
  | ⟨2, _⟩ =>
    show win0_3.index ⟨(i 0).val * 25 + (i 1).val / 400, hlt⟩ (2 : Fin 3) * 256 ≤ (i 2).val
      ∧ (i 2).val < win0_3.index ⟨(i 0).val * 25 + (i 1).val / 400, hlt⟩ (2 : Fin 3) * 256 + 256
    omega

/-- THE RESULT ARRAY after the run is G of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.RefValue.lean ====
/-
  The reference program's value is the bilinear sampling of the specification.

  A point (x, y, z) of batch b is joined with a 1 and sent through batch b's 4×4 matrix; the first two coordinates
  divided by the fourth, shifted, halved, scaled by 56 and clipped into [0, 55] give a position (X, Y). The program
  takes the floors and ceilings of X and Y as 32-bit words, moves a negative word up by 56, and reads the transposed
  image four times, at the pairs (⌊X⌋, ⌊Y⌋), (⌊X⌋, ⌈Y⌉), (⌈X⌉, ⌊Y⌋), (⌈X⌉, ⌈Y⌉), each component clamped into 0 … 55;
  the four reads are weighted by (⌈X⌉ - X)(⌈Y⌉ - Y), (⌈X⌉ - X)(Y - ⌊Y⌋), (X - ⌊X⌋)(⌈Y⌉ - Y), (X - ⌊X⌋)(Y - ⌊Y⌋) and added.
  This file reads the program one operation at a time at the entry (b, n, c) and arrives at the specification's
  four-corner sum: first a read of the table [16, 56, 56, 256] at an array of index pairs, then the point, its
  coordinates and its position, then the words, the index pairs, the four reads, the four weights, and the sum.
-/
import proofs.«132830_j19799799234728_1_alg».proof.Proof.Gen.ReferenceIdeal.Read
import proofs.«132830_j19799799234728_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Cert.ReferenceIdeal.Gen Idealize.ShloMosaic Idealize.ShloMosaic.ValueIdx

/-! ## The gather read at an index -/

/-- The gather's dimension numbers, under a short name. -/
abbrev GD := gather_S16x56x56x256_S16x10000x2_S16x10000x256_2_12_0_0_12_2_111256

/-- The gather of a table of shape [16, 56, 56, 256] at an array of index pairs of shape [16, 10000, 2]: entry
    (b, n, c) of the result is the table's entry (b, r₀, r₁, c), where r₀ and r₁ are the two components of the pair
    (b, n), each read signed and clamped into 0 … 55. -/
theorem gather_apply (T : S16x56x56x256.Idx → EReal) (idx : IVec S16x10000x2 32) (b : Fin 16) (n : Fin 10000) (c : Fin 256) :
    Host.gather GD T idx (ix3 b n c)
      = T (ix4 b (Cert.Bilinear.row (idx (ix3 b n 0))) (Cert.Bilinear.row (idx (ix3 b n 1))) c) := by
  unfold Host.gather
  refine congrArg T ?_
  funext a
  refine Fin.ext ?_
  match a with
  | ⟨0, h0⟩ =>
    show GD.start (ix3 b n c) idx 0 + GD.batchCoord (ix3 b n c) 0 + GD.offCoord (ix3 b n c) 0 = b.val
    rw [GatherDims.start_batching _ _ _ _ (by decide), GatherDims.offCoord_eq_zero _ _ _ (by decide),
      Nat.zero_add, Nat.add_zero]
    unfold GatherDims.batchCoord
    rw [dif_pos (by decide)]
    rfl
  | ⟨1, h1⟩ =>
    show GD.start (ix3 b n c) idx 1 + GD.batchCoord (ix3 b n c) 1 + GD.offCoord (ix3 b n c) 1
      = min (idx (ix3 b n 0)).toInt.toNat 55
    rw [GatherDims.batchCoord_eq_zero _ _ _ (by decide), GatherDims.offCoord_eq_zero _ _ _ (by decide)]
    simp only [Nat.add_zero]
    unfold GatherDims.start
    rw [dif_pos (show (1 : Fin S16x56x56x256.rank) ∈ GD.startIndexMap by decide)]
    have hsi : GD.siIdx (ix3 b n c) ⟨List.idxOf (1 : Fin S16x56x56x256.rank) GD.startIndexMap,
        List.idxOf_lt_length_iff.2 (by decide)⟩ = ix3 b n 0 := by
      funext e; refine Fin.ext ?_
      match e with
      | ⟨0, _⟩ => rfl
      | ⟨1, _⟩ => rfl
      | ⟨2, _⟩ => rfl
    rw [hsi]
    rfl
  | ⟨2, h2⟩ =>
    show GD.start (ix3 b n c) idx 2 + GD.batchCoord (ix3 b n c) 2 + GD.offCoord (ix3 b n c) 2
      = min (idx (ix3 b n 1)).toInt.toNat 55
    rw [GatherDims.batchCoord_eq_zero _ _ _ (by decide), GatherDims.offCoord_eq_zero _ _ _ (by decide)]
    simp only [Nat.add_zero]
    unfold GatherDims.start
    rw [dif_pos (show (2 : Fin S16x56x56x256.rank) ∈ GD.startIndexMap by decide)]
    have hsi : GD.siIdx (ix3 b n c) ⟨List.idxOf (2 : Fin S16x56x56x256.rank) GD.startIndexMap,
        List.idxOf_lt_length_iff.2 (by decide)⟩ = ix3 b n 1 := by
      funext e; refine Fin.ext ?_
      match e with
      | ⟨0, _⟩ => rfl
      | ⟨1, _⟩ => rfl
      | ⟨2, _⟩ => rfl
    rw [hsi]
    rfl
  | ⟨3, h3⟩ =>
    show GD.start (ix3 b n c) idx 3 + GD.batchCoord (ix3 b n c) 3 + GD.offCoord (ix3 b n c) 3 = c.val
    rw [GatherDims.batchCoord_eq_zero _ _ _ (by decide), Nat.add_zero]
    unfold GatherDims.start
    rw [dif_neg (by decide), Nat.zero_add]
    unfold GatherDims.offCoord
    rw [dif_pos (by decide)]
    rfl

/-! ## The point, its coordinates and its position -/

/-- The matrix of batch b. -/
abbrev mat (x2 : S16x4x4.Idx → EReal) (b : Fin 16) : Fin 4 → Fin 4 → EReal := fun r j => x2 (ix3 b r j)

/-- The horizontal position of point n of batch b. -/
abbrev PX (x0 : S16x10000x3.Idx → EReal) (x2 : S16x4x4.Idx → EReal) (b : Fin 16) (n : Fin 10000) : EReal :=
  Cert.Bilinear.xPos (Cert.Bilinear.coord (Cert.Bilinear.pt x0 b n) (mat x2 b) 0)
    (Cert.Bilinear.coord (Cert.Bilinear.pt x0 b n) (mat x2 b) 3)

/-- The vertical position of point n of batch b. -/
abbrev PY (x0 : S16x10000x3.Idx → EReal) (x2 : S16x4x4.Idx → EReal) (b : Fin 16) (n : Fin 10000) : EReal :=
  Cert.Bilinear.yPos (Cert.Bilinear.coord (Cert.Bilinear.pt x0 b n) (mat x2 b) 1)
    (Cert.Bilinear.coord (Cert.Bilinear.pt x0 b n) (mat x2 b) 3)

/-- The homogeneous point: the three given coordinates joined with a column of ones. -/
theorem v1_at (x0 : S16x10000x3.Idx → EReal) (b : Fin 16) (n : Fin 10000) (k : Fin 4) :
    val_main_v1 (F := Ideal) x0 (ix3 b n k) = Cert.Bilinear.pt x0 b n k := by
  unfold val_main_v1 Cert.Bilinear.pt
  by_cases h : k.val < 3
  · rw [dif_pos h]
    exact concatenate_pair_apply_left (t := S16x10000x4) 2 x0 _ _ (ix3 b n k) rfl (ix3 b n ⟨k.val, h⟩)
      (fun e => match e with | ⟨0, _⟩ => rfl | ⟨1, _⟩ => rfl | ⟨2, _⟩ => rfl)
  · rw [dif_neg h]
    refine (concatenate_pair_apply_right (t := S16x10000x4) (s₂ := S16x10000x1) 2 x0 (val_main_v0 (F := Ideal)) _ (ix3 b n k)
      rfl rfl (ix3 b n (0 : Fin 1)) ?_ ?_).trans ?_
    · intro e he
      match e, he with
      | ⟨0, _⟩, _ => rfl
      | ⟨1, _⟩, _ => rfl
      | ⟨2, _⟩, he => exact absurd rfl he
    · show 0 + 3 = k.val
      have := k.isLt; omega
    · rw [val_main_v0_apply, val_main_cst_apply]; rfl

/-- Coordinate i of the transformed point. -/
theorem v2_at (x0 : S16x10000x3.Idx → EReal) (x2 : S16x4x4.Idx → EReal) (b : Fin 16) (n : Fin 10000) (i : Fin 4) :
    val_main_v2 (F := Ideal) x0 x2 (ix3 b n i) = Cert.Bilinear.coord (Cert.Bilinear.pt x0 b n) (mat x2 b) i := by
  rw [val_main_v2_apply]
  unfold Cert.Bilinear.coord
  refine Finset.sum_congr rfl fun k _ => ?_
  have el : lidx_main_v2 (ix3 b n i) k = ix3 b n k := funext fun a => Fin.ext (by
    match a with
    | ⟨0, _⟩ => rfl
    | ⟨1, _⟩ => rfl
    | ⟨2, _⟩ => rfl)
  have er : ridx_main_v2 (ix3 b n i) k = ix3 b i k := funext fun a => Fin.ext (by
    match a with
    | ⟨0, _⟩ => rfl
    | ⟨1, _⟩ => rfl
    | ⟨2, _⟩ => rfl)
  rw [el, er, v1_at]

/-- The slice of coordinate 0, reshaped, reads the coordinates at (b, n, 0). -/
theorem idx_v3_v4 (b : Fin 16) (n : Fin 10000) : idx_main_v3 (idx_main_v4 (ix2 b n)) = ix3 b n (0 : Fin 4) :=
  funext fun a => Fin.ext (by
    have hb := b.isLt; have hn := n.isLt
    match a with
    | ⟨0, _⟩ => show (b.val * 10000 + n.val) / 10000 = b.val; omega
    | ⟨1, _⟩ => show (b.val * 10000 + n.val) / 1 % 10000 = n.val; omega
    | ⟨2, _⟩ => rfl)
/-- The slice of coordinate 3, reshaped, reads the coordinates at (b, n, 3). -/
theorem idx_v5_v6 (b : Fin 16) (n : Fin 10000) : idx_main_v5 (idx_main_v6 (ix2 b n)) = ix3 b n (3 : Fin 4) :=
  funext fun a => Fin.ext (by
    have hb := b.isLt; have hn := n.isLt
    match a with
    | ⟨0, _⟩ => show (b.val * 10000 + n.val) / 10000 = b.val; omega
    | ⟨1, _⟩ => show (b.val * 10000 + n.val) / 1 % 10000 = n.val; omega
    | ⟨2, _⟩ => rfl)
/-- The slice of coordinate 1, reshaped, reads the coordinates at (b, n, 1). -/
theorem idx_v12_v13 (b : Fin 16) (n : Fin 10000) : idx_main_v12 (idx_main_v13 (ix2 b n)) = ix3 b n (1 : Fin 4) :=
  funext fun a => Fin.ext (by
    have hb := b.isLt; have hn := n.isLt
    match a with
    | ⟨0, _⟩ => show (b.val * 10000 + n.val) / 10000 = b.val; omega
    | ⟨1, _⟩ => show (b.val * 10000 + n.val) / 1 % 10000 = n.val; omega
    | ⟨2, _⟩ => rfl)
/-- The second slice of coordinate 3, reshaped, reads the coordinates at (b, n, 3). -/
theorem idx_v14_v15 (b : Fin 16) (n : Fin 10000) : idx_main_v14 (idx_main_v15 (ix2 b n)) = ix3 b n (3 : Fin 4) :=
  funext fun a => Fin.ext (by
    have hb := b.isLt; have hn := n.isLt
    match a with
    | ⟨0, _⟩ => show (b.val * 10000 + n.val) / 10000 = b.val; omega
    | ⟨1, _⟩ => show (b.val * 10000 + n.val) / 1 % 10000 = n.val; omega
    | ⟨2, _⟩ => rfl)

/-- The horizontal position: ((c₀ / c₃ + 1) / 2) · 56, clipped into [0, 55]. -/
theorem v25_at (x0 : S16x10000x3.Idx → EReal) (x2 : S16x4x4.Idx → EReal) (b : Fin 16) (n : Fin 10000) :
    val_main_v25 (F := Ideal) x0 x2 (ix2 b n) = PX x0 x2 b n := by
  rw [val_main_v25_apply, val_main_call0_v4_apply, val_main_call0_v3_apply, val_main_c_6_apply, val_main_call0_v2_apply,
    val_main_call0_v1_apply, val_main_call0_v0_apply, val_main_c_apply, val_main_v24_apply, val_main_v23_apply,
    val_main_cst_5_apply, val_main_v11_apply, val_main_v10_apply, val_main_cst_1_apply, val_main_v9_apply,
    val_main_v8_apply, val_main_cst_0_apply, val_main_v7_apply, val_main_v6_apply, val_main_v5_apply,
    val_main_v4_apply, val_main_v3_apply, idx_v3_v4, idx_v5_v6, v2_at, v2_at]
  exact Cert.Bilinear.xPos_ref _ _

/-- The vertical position: (1 - (c₁ / c₃ + 1) / 2) · 56, clipped into [0, 55]. -/
theorem v28_at (x0 : S16x10000x3.Idx → EReal) (x2 : S16x4x4.Idx → EReal) (b : Fin 16) (n : Fin 10000) :
    val_main_v28 (F := Ideal) x0 x2 (ix2 b n) = PY x0 x2 b n := by
  rw [val_main_v28_apply, val_main_call1_v4_apply, val_main_call1_v3_apply, val_main_c_9_apply, val_main_call1_v2_apply,
    val_main_call1_v1_apply, val_main_call1_v0_apply, val_main_c_8_apply, val_main_v27_apply, val_main_v26_apply,
    val_main_cst_7_apply, val_main_v22_apply, val_main_v21_apply, val_main_cst_4_apply, val_main_v20_apply,
    val_main_v19_apply, val_main_cst_3_apply, val_main_v18_apply, val_main_v17_apply, val_main_cst_2_apply,
    val_main_v16_apply, val_main_v15_apply, val_main_v14_apply, val_main_v13_apply, val_main_v12_apply,
    idx_v12_v13, idx_v14_v15, v2_at, v2_at]
  exact Cert.Bilinear.yPos_ref _ _

/-! ## The floor and ceiling words -/

/-- The floor of the horizontal position, as a word. -/
theorem v31_at (x0 : S16x10000x3.Idx → EReal) (x2 : S16x4x4.Idx → EReal) (b : Fin 16) (n : Fin 10000) :
    val_main_v31 (F := Ideal) x0 x2 (ix2 b n) = Cert.Bilinear.lo (PX x0 x2 b n) := by
  rw [val_main_v31_apply, val_main_v30_apply, v25_at]; rfl
/-- The ceiling of the horizontal position, as a word. -/
theorem v33_at (x0 : S16x10000x3.Idx → EReal) (x2 : S16x4x4.Idx → EReal) (b : Fin 16) (n : Fin 10000) :
    val_main_v33 (F := Ideal) x0 x2 (ix2 b n) = Cert.Bilinear.hi (PX x0 x2 b n) := by
  rw [val_main_v33_apply, val_main_v32_apply, v25_at]; rfl
/-- The floor of the vertical position, as a word. -/
theorem v35_at (x0 : S16x10000x3.Idx → EReal) (x2 : S16x4x4.Idx → EReal) (b : Fin 16) (n : Fin 10000) :
    val_main_v35 (F := Ideal) x0 x2 (ix2 b n) = Cert.Bilinear.lo (PY x0 x2 b n) := by
  rw [val_main_v35_apply, val_main_v34_apply, v28_at]; rfl
/-- The ceiling of the vertical position, as a word. -/
theorem v37_at (x0 : S16x10000x3.Idx → EReal) (x2 : S16x4x4.Idx → EReal) (b : Fin 16) (n : Fin 10000) :
    val_main_v37 (F := Ideal) x0 x2 (ix2 b n) = Cert.Bilinear.hi (PY x0 x2 b n) := by
  rw [val_main_v37_apply, val_main_v36_apply, v28_at]; rfl

/-! ## The index words moved into range: a negative word goes up by 56 -/

theorem v42_at (x0 : S16x10000x3.Idx → EReal) (x2 : S16x4x4.Idx → EReal) (b : Fin 16) (n : Fin 10000) :
    val_main_v42 (F := Ideal) x0 x2 (ix2 b n) = Cert.Bilinear.norm (Cert.Bilinear.lo (PX x0 x2 b n)) := by
  rw [val_main_v42_apply, val_main_v39_apply, val_main_v41_apply, val_main_v38_apply, val_main_c_10_apply,
    val_main_v40_apply, val_main_c_11_apply, v31_at]
  rfl
theorem v47_at (x0 : S16x10000x3.Idx → EReal) (x2 : S16x4x4.Idx → EReal) (b : Fin 16) (n : Fin 10000) :
    val_main_v47 (F := Ideal) x0 x2 (ix2 b n) = Cert.Bilinear.norm (Cert.Bilinear.lo (PY x0 x2 b n)) := by
  rw [val_main_v47_apply, val_main_v44_apply, val_main_v46_apply, val_main_v43_apply, val_main_c_12_apply,
    val_main_v45_apply, val_main_c_13_apply, v35_at]
  rfl
theorem v56_at (x0 : S16x10000x3.Idx → EReal) (x2 : S16x4x4.Idx → EReal) (b : Fin 16) (n : Fin 10000) :
    val_main_v56 (F := Ideal) x0 x2 (ix2 b n) = Cert.Bilinear.norm (Cert.Bilinear.lo (PX x0 x2 b n)) := by
  rw [val_main_v56_apply, val_main_v53_apply, val_main_v55_apply, val_main_v52_apply, val_main_c_14_apply,
    val_main_v54_apply, val_main_c_15_apply, v31_at]
  rfl
theorem v61_at (x0 : S16x10000x3.Idx → EReal) (x2 : S16x4x4.Idx → EReal) (b : Fin 16) (n : Fin 10000) :
    val_main_v61 (F := Ideal) x0 x2 (ix2 b n) = Cert.Bilinear.norm (Cert.Bilinear.hi (PY x0 x2 b n)) := by
  rw [val_main_v61_apply, val_main_v58_apply, val_main_v60_apply, val_main_v57_apply, val_main_c_16_apply,
    val_main_v59_apply, val_main_c_17_apply, v37_at]
  rfl
theorem v70_at (x0 : S16x10000x3.Idx → EReal) (x2 : S16x4x4.Idx → EReal) (b : Fin 16) (n : Fin 10000) :
    val_main_v70 (F := Ideal) x0 x2 (ix2 b n) = Cert.Bilinear.norm (Cert.Bilinear.hi (PX x0 x2 b n)) := by
  rw [val_main_v70_apply, val_main_v67_apply, val_main_v69_apply, val_main_v66_apply, val_main_c_18_apply,
    val_main_v68_apply, val_main_c_19_apply, v33_at]
  rfl
theorem v75_at (x0 : S16x10000x3.Idx → EReal) (x2 : S16x4x4.Idx → EReal) (b : Fin 16) (n : Fin 10000) :
    val_main_v75 (F := Ideal) x0 x2 (ix2 b n) = Cert.Bilinear.norm (Cert.Bilinear.lo (PY x0 x2 b n)) := by
  rw [val_main_v75_apply, val_main_v72_apply, val_main_v74_apply, val_main_v71_apply, val_main_c_20_apply,
    val_main_v73_apply, val_main_c_21_apply, v35_at]
  rfl
theorem v84_at (x0 : S16x10000x3.Idx → EReal) (x2 : S16x4x4.Idx → EReal) (b : Fin 16) (n : Fin 10000) :
    val_main_v84 (F := Ideal) x0 x2 (ix2 b n) = Cert.Bilinear.norm (Cert.Bilinear.hi (PX x0 x2 b n)) := by
  rw [val_main_v84_apply, val_main_v81_apply, val_main_v83_apply, val_main_v80_apply, val_main_c_22_apply,
    val_main_v82_apply, val_main_c_23_apply, v33_at]
  rfl
theorem v89_at (x0 : S16x10000x3.Idx → EReal) (x2 : S16x4x4.Idx → EReal) (b : Fin 16) (n : Fin 10000) :
    val_main_v89 (F := Ideal) x0 x2 (ix2 b n) = Cert.Bilinear.norm (Cert.Bilinear.hi (PY x0 x2 b n)) := by
  rw [val_main_v89_apply, val_main_v86_apply, val_main_v88_apply, val_main_v85_apply, val_main_c_24_apply,
    val_main_v87_apply, val_main_c_25_apply, v37_at]
  rfl

/-! ## The index pairs: two columns joined -/

/-- Two columns joined along the last axis: component 0 is the first column. -/
theorem concat_cols_left {α : Type} (u v : S16x10000x1.Idx → α)
    (h : Shape.Concatenates [S16x10000x1, S16x10000x1] S16x10000x2 2) (b : Fin 16) (n : Fin 10000) :
    concatenate S16x10000x2 2 [⟨S16x10000x1, u⟩, ⟨S16x10000x1, v⟩] h (ix3 b n (0 : Fin 2)) = u (ix3 b n (0 : Fin 1)) :=
  concatenate_pair_apply_left (t := S16x10000x2) (s₁ := S16x10000x1) (s₂ := S16x10000x1) 2 u v h (ix3 b n (0 : Fin 2)) rfl
    (ix3 b n (0 : Fin 1)) (fun e => match e with | ⟨0, _⟩ => rfl | ⟨1, _⟩ => rfl | ⟨2, _⟩ => rfl)

/-- Two columns joined along the last axis: component 1 is the second column. -/
theorem concat_cols_right {α : Type} (u v : S16x10000x1.Idx → α)
    (h : Shape.Concatenates [S16x10000x1, S16x10000x1] S16x10000x2 2) (b : Fin 16) (n : Fin 10000) :
    concatenate S16x10000x2 2 [⟨S16x10000x1, u⟩, ⟨S16x10000x1, v⟩] h (ix3 b n (1 : Fin 2)) = v (ix3 b n (0 : Fin 1)) := by
  refine concatenate_pair_apply_right (t := S16x10000x2) (s₁ := S16x10000x1) (s₂ := S16x10000x1) 2 u v h (ix3 b n (1 : Fin 2))
    rfl rfl (ix3 b n (0 : Fin 1)) ?_ ?_
  · intro e he
    match e, he with
    | ⟨0, _⟩, _ => rfl
    | ⟨1, _⟩, _ => rfl
    | ⟨2, _⟩, he => exact absurd rfl he
  · rfl

theorem v48_at (x0 : S16x10000x3.Idx → EReal) (x2 : S16x4x4.Idx → EReal) (b : Fin 16) (n : Fin 10000) (k : Fin 1) :
    val_main_v48 (F := Ideal) x0 x2 (ix3 b n k) = Cert.Bilinear.norm (Cert.Bilinear.lo (PX x0 x2 b n)) := by
  have e : idx_main_v48 (ix3 b n k) = ix2 b n := funext fun a => Fin.ext (by
    match a with
    | ⟨0, _⟩ => rfl
    | ⟨1, _⟩ => rfl)
  rw [val_main_v48_apply, e, v42_at]
theorem v49_at (x0 : S16x10000x3.Idx → EReal) (x2 : S16x4x4.Idx → EReal) (b : Fin 16) (n : Fin 10000) (k : Fin 1) :
    val_main_v49 (F := Ideal) x0 x2 (ix3 b n k) = Cert.Bilinear.norm (Cert.Bilinear.lo (PY x0 x2 b n)) := by
  have e : idx_main_v49 (ix3 b n k) = ix2 b n := funext fun a => Fin.ext (by
    match a with
    | ⟨0, _⟩ => rfl
    | ⟨1, _⟩ => rfl)
  rw [val_main_v49_apply, e, v47_at]
theorem v62_at (x0 : S16x10000x3.Idx → EReal) (x2 : S16x4x4.Idx → EReal) (b : Fin 16) (n : Fin 10000) (k : Fin 1) :
    val_main_v62 (F := Ideal) x0 x2 (ix3 b n k) = Cert.Bilinear.norm (Cert.Bilinear.lo (PX x0 x2 b n)) := by
  have e : idx_main_v62 (ix3 b n k) = ix2 b n := funext fun a => Fin.ext (by
    match a with
    | ⟨0, _⟩ => rfl
    | ⟨1, _⟩ => rfl)
  rw [val_main_v62_apply, e, v56_at]
theorem v63_at (x0 : S16x10000x3.Idx → EReal) (x2 : S16x4x4.Idx → EReal) (b : Fin 16) (n : Fin 10000) (k : Fin 1) :
    val_main_v63 (F := Ideal) x0 x2 (ix3 b n k) = Cert.Bilinear.norm (Cert.Bilinear.hi (PY x0 x2 b n)) := by
  have e : idx_main_v63 (ix3 b n k) = ix2 b n := funext fun a => Fin.ext (by
    match a with
    | ⟨0, _⟩ => rfl
    | ⟨1, _⟩ => rfl)
  rw [val_main_v63_apply, e, v61_at]
theorem v76_at (x0 : S16x10000x3.Idx → EReal) (x2 : S16x4x4.Idx → EReal) (b : Fin 16) (n : Fin 10000) (k : Fin 1) :
    val_main_v76 (F := Ideal) x0 x2 (ix3 b n k) = Cert.Bilinear.norm (Cert.Bilinear.hi (PX x0 x2 b n)) := by
  have e : idx_main_v76 (ix3 b n k) = ix2 b n := funext fun a => Fin.ext (by
    match a with
    | ⟨0, _⟩ => rfl
    | ⟨1, _⟩ => rfl)
  rw [val_main_v76_apply, e, v70_at]
theorem v77_at (x0 : S16x10000x3.Idx → EReal) (x2 : S16x4x4.Idx → EReal) (b : Fin 16) (n : Fin 10000) (k : Fin 1) :
    val_main_v77 (F := Ideal) x0 x2 (ix3 b n k) = Cert.Bilinear.norm (Cert.Bilinear.lo (PY x0 x2 b n)) := by
  have e : idx_main_v77 (ix3 b n k) = ix2 b n := funext fun a => Fin.ext (by
    match a with
    | ⟨0, _⟩ => rfl
    | ⟨1, _⟩ => rfl)
  rw [val_main_v77_apply, e, v75_at]
theorem v90_at (x0 : S16x10000x3.Idx → EReal) (x2 : S16x4x4.Idx → EReal) (b : Fin 16) (n : Fin 10000) (k : Fin 1) :
    val_main_v90 (F := Ideal) x0 x2 (ix3 b n k) = Cert.Bilinear.norm (Cert.Bilinear.hi (PX x0 x2 b n)) := by
  have e : idx_main_v90 (ix3 b n k) = ix2 b n := funext fun a => Fin.ext (by
    match a with
    | ⟨0, _⟩ => rfl
    | ⟨1, _⟩ => rfl)
  rw [val_main_v90_apply, e, v84_at]
theorem v91_at (x0 : S16x10000x3.Idx → EReal) (x2 : S16x4x4.Idx → EReal) (b : Fin 16) (n : Fin 10000) (k : Fin 1) :
    val_main_v91 (F := Ideal) x0 x2 (ix3 b n k) = Cert.Bilinear.norm (Cert.Bilinear.hi (PY x0 x2 b n)) := by
  have e : idx_main_v91 (ix3 b n k) = ix2 b n := funext fun a => Fin.ext (by
    match a with
    | ⟨0, _⟩ => rfl
    | ⟨1, _⟩ => rfl)
  rw [val_main_v91_apply, e, v89_at]
theorem v50_at0 (x0 : S16x10000x3.Idx → EReal) (x2 : S16x4x4.Idx → EReal) (b : Fin 16) (n : Fin 10000) :
    val_main_v50 (F := Ideal) x0 x2 (ix3 b n (0 : Fin 2)) = Cert.Bilinear.norm (Cert.Bilinear.lo (PX x0 x2 b n)) := by
  unfold val_main_v50
  exact (concat_cols_left _ _ _ b n).trans (v48_at x0 x2 b n 0)
theorem v50_at1 (x0 : S16x10000x3.Idx → EReal) (x2 : S16x4x4.Idx → EReal) (b : Fin 16) (n : Fin 10000) :
    val_main_v50 (F := Ideal) x0 x2 (ix3 b n (1 : Fin 2)) = Cert.Bilinear.norm (Cert.Bilinear.lo (PY x0 x2 b n)) := by
  unfold val_main_v50
  exact (concat_cols_right _ _ _ b n).trans (v49_at x0 x2 b n 0)
theorem v64_at0 (x0 : S16x10000x3.Idx → EReal) (x2 : S16x4x4.Idx → EReal) (b : Fin 16) (n : Fin 10000) :
    val_main_v64 (F := Ideal) x0 x2 (ix3 b n (0 : Fin 2)) = Cert.Bilinear.norm (Cert.Bilinear.lo (PX x0 x2 b n)) := by
  unfold val_main_v64
  exact (concat_cols_left _ _ _ b n).trans (v62_at x0 x2 b n 0)
theorem v64_at1 (x0 : S16x10000x3.Idx → EReal) (x2 : S16x4x4.Idx → EReal) (b : Fin 16) (n : Fin 10000) :
    val_main_v64 (F := Ideal) x0 x2 (ix3 b n (1 : Fin 2)) = Cert.Bilinear.norm (Cert.Bilinear.hi (PY x0 x2 b n)) := by
  unfold val_main_v64
  exact (concat_cols_right _ _ _ b n).trans (v63_at x0 x2 b n 0)
theorem v78_at0 (x0 : S16x10000x3.Idx → EReal) (x2 : S16x4x4.Idx → EReal) (b : Fin 16) (n : Fin 10000) :
    val_main_v78 (F := Ideal) x0 x2 (ix3 b n (0 : Fin 2)) = Cert.Bilinear.norm (Cert.Bilinear.hi (PX x0 x2 b n)) := by
  unfold val_main_v78
  exact (concat_cols_left _ _ _ b n).trans (v76_at x0 x2 b n 0)
theorem v78_at1 (x0 : S16x10000x3.Idx → EReal) (x2 : S16x4x4.Idx → EReal) (b : Fin 16) (n : Fin 10000) :
    val_main_v78 (F := Ideal) x0 x2 (ix3 b n (1 : Fin 2)) = Cert.Bilinear.norm (Cert.Bilinear.lo (PY x0 x2 b n)) := by
  unfold val_main_v78
  exact (concat_cols_right _ _ _ b n).trans (v77_at x0 x2 b n 0)
theorem v92_at0 (x0 : S16x10000x3.Idx → EReal) (x2 : S16x4x4.Idx → EReal) (b : Fin 16) (n : Fin 10000) :
    val_main_v92 (F := Ideal) x0 x2 (ix3 b n (0 : Fin 2)) = Cert.Bilinear.norm (Cert.Bilinear.hi (PX x0 x2 b n)) := by
  unfold val_main_v92
  exact (concat_cols_left _ _ _ b n).trans (v90_at x0 x2 b n 0)
theorem v92_at1 (x0 : S16x10000x3.Idx → EReal) (x2 : S16x4x4.Idx → EReal) (b : Fin 16) (n : Fin 10000) :
    val_main_v92 (F := Ideal) x0 x2 (ix3 b n (1 : Fin 2)) = Cert.Bilinear.norm (Cert.Bilinear.hi (PY x0 x2 b n)) := by
  unfold val_main_v92
  exact (concat_cols_right _ _ _ b n).trans (v91_at x0 x2 b n 0)

/-! ## The four reads of the transposed image -/

/-- The transposed image at (b, r₀, r₁, c) is the image at (b, c, r₁, r₀). -/
theorem v29_at (x1 : S16x256x56x56.Idx → EReal) (b : Fin 16) (r0 r1 : Fin 56) (c : Fin 256) :
    val_main_v29 (F := Ideal) x1 (ix4 b r0 r1 c) = x1 (ix4 b c r1 r0) := by
  have e : idx_main_v29 (ix4 b r0 r1 c) = ix4 b c r1 r0 := funext fun a => Fin.ext (by
    match a with
    | ⟨0, _⟩ => rfl
    | ⟨1, _⟩ => rfl
    | ⟨2, _⟩ => rfl
    | ⟨3, _⟩ => rfl)
  rw [val_main_v29_apply, e]

theorem v51_at (x0 : S16x10000x3.Idx → EReal) (x1 : S16x256x56x56.Idx → EReal) (x2 : S16x4x4.Idx → EReal) (b : Fin 16) (n : Fin 10000) (c : Fin 256) :
    val_main_v51 (F := Ideal) x0 x1 x2 (ix3 b n c)
      = x1 (ix4 b c (Cert.Bilinear.row (Cert.Bilinear.norm (Cert.Bilinear.lo (PY x0 x2 b n)))) (Cert.Bilinear.row (Cert.Bilinear.norm (Cert.Bilinear.lo (PX x0 x2 b n))))) := by
  unfold val_main_v51
  refine (gather_apply _ _ b n c).trans ?_
  rw [v29_at, v50_at0, v50_at1]
theorem v65_at (x0 : S16x10000x3.Idx → EReal) (x1 : S16x256x56x56.Idx → EReal) (x2 : S16x4x4.Idx → EReal) (b : Fin 16) (n : Fin 10000) (c : Fin 256) :
    val_main_v65 (F := Ideal) x0 x1 x2 (ix3 b n c)
      = x1 (ix4 b c (Cert.Bilinear.row (Cert.Bilinear.norm (Cert.Bilinear.hi (PY x0 x2 b n)))) (Cert.Bilinear.row (Cert.Bilinear.norm (Cert.Bilinear.lo (PX x0 x2 b n))))) := by
  unfold val_main_v65
  refine (gather_apply _ _ b n c).trans ?_
  rw [v29_at, v64_at0, v64_at1]
theorem v79_at (x0 : S16x10000x3.Idx → EReal) (x1 : S16x256x56x56.Idx → EReal) (x2 : S16x4x4.Idx → EReal) (b : Fin 16) (n : Fin 10000) (c : Fin 256) :
    val_main_v79 (F := Ideal) x0 x1 x2 (ix3 b n c)
      = x1 (ix4 b c (Cert.Bilinear.row (Cert.Bilinear.norm (Cert.Bilinear.lo (PY x0 x2 b n)))) (Cert.Bilinear.row (Cert.Bilinear.norm (Cert.Bilinear.hi (PX x0 x2 b n))))) := by
  unfold val_main_v79
  refine (gather_apply _ _ b n c).trans ?_
  rw [v29_at, v78_at0, v78_at1]
theorem v93_at (x0 : S16x10000x3.Idx → EReal) (x1 : S16x256x56x56.Idx → EReal) (x2 : S16x4x4.Idx → EReal) (b : Fin 16) (n : Fin 10000) (c : Fin 256) :
    val_main_v93 (F := Ideal) x0 x1 x2 (ix3 b n c)
      = x1 (ix4 b c (Cert.Bilinear.row (Cert.Bilinear.norm (Cert.Bilinear.hi (PY x0 x2 b n)))) (Cert.Bilinear.row (Cert.Bilinear.norm (Cert.Bilinear.hi (PX x0 x2 b n))))) := by
  unfold val_main_v93
  refine (gather_apply _ _ b n c).trans ?_
  rw [v29_at, v92_at0, v92_at1]

/-! ## The four weights -/

theorem v100_at (x0 : S16x10000x3.Idx → EReal) (x2 : S16x4x4.Idx → EReal) (b : Fin 16) (n : Fin 10000) :
    val_main_v100 (F := Ideal) x0 x2 (ix2 b n) = Cert.Bilinear.w11 (PX x0 x2 b n) (PY x0 x2 b n) := by
  rw [val_main_v100_apply, val_main_v98_apply, val_main_v99_apply, val_main_v95_apply, val_main_v97_apply, v33_at, v37_at, v25_at, v28_at]
  rfl
theorem v114_at (x0 : S16x10000x3.Idx → EReal) (x2 : S16x4x4.Idx → EReal) (b : Fin 16) (n : Fin 10000) (c : Fin 256) :
    val_main_v114 (F := Ideal) x0 x2 (ix3 b n c) = Cert.Bilinear.w11 (PX x0 x2 b n) (PY x0 x2 b n) := by
  have e : idx_main_v101 (idx_main_v114 (ix3 b n c)) = ix2 b n := funext fun a => Fin.ext (by
    match a with
    | ⟨0, _⟩ => rfl
    | ⟨1, _⟩ => rfl)
  rw [val_main_v114_apply, val_main_v101_apply, e, v100_at]
theorem v104_at (x0 : S16x10000x3.Idx → EReal) (x2 : S16x4x4.Idx → EReal) (b : Fin 16) (n : Fin 10000) :
    val_main_v104 (F := Ideal) x0 x2 (ix2 b n) = Cert.Bilinear.w12 (PX x0 x2 b n) (PY x0 x2 b n) := by
  rw [val_main_v104_apply, val_main_v102_apply, val_main_v103_apply, val_main_v95_apply, val_main_v96_apply, v33_at, v35_at, v25_at, v28_at]
  rfl
theorem v119_at (x0 : S16x10000x3.Idx → EReal) (x2 : S16x4x4.Idx → EReal) (b : Fin 16) (n : Fin 10000) (c : Fin 256) :
    val_main_v119 (F := Ideal) x0 x2 (ix3 b n c) = Cert.Bilinear.w12 (PX x0 x2 b n) (PY x0 x2 b n) := by
  have e : idx_main_v105 (idx_main_v119 (ix3 b n c)) = ix2 b n := funext fun a => Fin.ext (by
    match a with
    | ⟨0, _⟩ => rfl
    | ⟨1, _⟩ => rfl)
  rw [val_main_v119_apply, val_main_v105_apply, e, v104_at]
theorem v108_at (x0 : S16x10000x3.Idx → EReal) (x2 : S16x4x4.Idx → EReal) (b : Fin 16) (n : Fin 10000) :
    val_main_v108 (F := Ideal) x0 x2 (ix2 b n) = Cert.Bilinear.w21 (PX x0 x2 b n) (PY x0 x2 b n) := by
  rw [val_main_v108_apply, val_main_v106_apply, val_main_v107_apply, val_main_v94_apply, val_main_v97_apply, v31_at, v37_at, v25_at, v28_at]
  rfl
theorem v116_at (x0 : S16x10000x3.Idx → EReal) (x2 : S16x4x4.Idx → EReal) (b : Fin 16) (n : Fin 10000) (c : Fin 256) :
    val_main_v116 (F := Ideal) x0 x2 (ix3 b n c) = Cert.Bilinear.w21 (PX x0 x2 b n) (PY x0 x2 b n) := by
  have e : idx_main_v109 (idx_main_v116 (ix3 b n c)) = ix2 b n := funext fun a => Fin.ext (by
    match a with
    | ⟨0, _⟩ => rfl
    | ⟨1, _⟩ => rfl)
  rw [val_main_v116_apply, val_main_v109_apply, e, v108_at]
theorem v112_at (x0 : S16x10000x3.Idx → EReal) (x2 : S16x4x4.Idx → EReal) (b : Fin 16) (n : Fin 10000) :
    val_main_v112 (F := Ideal) x0 x2 (ix2 b n) = Cert.Bilinear.w22 (PX x0 x2 b n) (PY x0 x2 b n) := by
  rw [val_main_v112_apply, val_main_v110_apply, val_main_v111_apply, val_main_v94_apply, val_main_v96_apply, v31_at, v35_at, v25_at, v28_at]
  rfl
theorem v122_at (x0 : S16x10000x3.Idx → EReal) (x2 : S16x4x4.Idx → EReal) (b : Fin 16) (n : Fin 10000) (c : Fin 256) :
    val_main_v122 (F := Ideal) x0 x2 (ix3 b n c) = Cert.Bilinear.w22 (PX x0 x2 b n) (PY x0 x2 b n) := by
  have e : idx_main_v113 (idx_main_v122 (ix3 b n c)) = ix2 b n := funext fun a => Fin.ext (by
    match a with
    | ⟨0, _⟩ => rfl
    | ⟨1, _⟩ => rfl)
  rw [val_main_v122_apply, val_main_v113_apply, e, v112_at]

/-! ## The weighted sum of the four reads -/

/-- The reference's value is the specification's: at every entry, the four corners' entries of the image weighted. -/
theorem ref_eq (x0 : (⟨S16x10000x3, .f32⟩ : BufTy).Contents (Elt Ideal)) (x1 : (⟨S16x256x56x56, .f32⟩ : BufTy).Contents (Elt Ideal))
    (x2 : (⟨S16x4x4, .f32⟩ : BufTy).Contents (Elt Ideal)) :
    Cert.ReferenceIdeal.Read.val_main_v124 (F := Ideal) x0 x1 x2 = Cert.Bilinear.G x0 x1 x2 := by
  funext i
  obtain ⟨b, n, c, rfl⟩ : ∃ b n c, i = ix3 b n c := ⟨i 0, i 1, i 2, eq_ix3 i⟩
  rw [Cert.Bilinear.G_ix3]
  unfold Cert.Bilinear.Gat Cert.Bilinear.tapSum Cert.Bilinear.taps
  rw [val_main_v124_apply, val_main_v121_apply, val_main_v118_apply, val_main_v115_apply, val_main_v117_apply,
    val_main_v120_apply, val_main_v123_apply, v114_at, v116_at, v119_at, v122_at, v51_at, v79_at, v65_at, v93_at]
  rfl

end Cert.ReferenceIdeal.RefValue

end
-- ==== Proof.lean ====
/-
  The kernel samples, for each of 16 × 10000 points, a 56 × 56 × 256 feature image bilinearly at the point's projected
  position; the reference does the same with four gathers.

  Both programs complete each point (x, y, z) with a fourth coordinate 1, multiply by the batch's 4 × 4 matrix, divide the
  first two coordinates by the fourth, map them to pixel units and CLIP them into [0, 55]: the kernel halves by the product
  with 0.5 where the reference divides by 2.0, the same function on every extended real. After the clip both coordinates
  are real numbers in [0, 55] whatever the inputs were, so their floors and ceilings are integers in 0 … 55, the four
  bilinear weights are nonnegative reals, and every corner index is in range (the reference's clamp and its
  count-from-the-end rule for negative indices do nothing). The reference gathers the four corner entries of the
  transposed image and adds them up weighted. The kernel instead builds, per point, a row of 3136 weights that is zero
  except at the four corners' flat rows x · 56 + y (coinciding corners add), and multiplies the 400 × 3136 weight matrix by
  the flat feature table; since the weights are nonnegative the extended reals distribute over their sums, and each
  entry of the product collapses to the same four weighted corner entries (`Cert.Bilinear.sum_wrow`). Changes of float
  format are the identity at the extended reals, and the two matrix products are the exact finite sums.
  The equality holds for ALL inputs: the precondition is never used.

  Modules: Proof/Spec.lean (the scalar mathematics and the specification `Cert.Bilinear.G`, no program), Proof/KernelPoint.lean
  (the kernel body's stored block at an entry), Proof/KernelValue.lean (from the grid points' blocks to the whole result array),
  Proof/RefValue.lean (the reference's result is G), and four small general lemma files Proof/Lib*.lean. The frames and the
  runs' skeletons are the generated modules'.
-/
import proofs.«132830_j19799799234728_1_alg».proof.Defs
import proofs.«132830_j19799799234728_1_alg».proof.Proof.Gen.Kernel
import proofs.«132830_j19799799234728_1_alg».proof.Proof.Gen.Kernel.Skeleton
import proofs.«132830_j19799799234728_1_alg».proof.Proof.Gen.Kernel.Launch
import proofs.«132830_j19799799234728_1_alg».proof.Proof.Gen.Kernel.Points
import proofs.«132830_j19799799234728_1_alg».proof.Proof.Gen.Kernel.Frame
import proofs.«132830_j19799799234728_1_alg».proof.Proof.Gen.KernelIdeal
import proofs.«132830_j19799799234728_1_alg».proof.Proof.Gen.KernelIdeal.Skeleton
import proofs.«132830_j19799799234728_1_alg».proof.Proof.Gen.KernelIdeal.Launch
import proofs.«132830_j19799799234728_1_alg».proof.Proof.Gen.KernelIdeal.Points
import proofs.«132830_j19799799234728_1_alg».proof.Proof.Gen.KernelIdeal.Frame
import proofs.«132830_j19799799234728_1_alg».proof.Proof.Gen.ReferenceIdeal
import proofs.«132830_j19799799234728_1_alg».proof.Proof.Gen.Pre_finite_inputs
import proofs.«132830_j19799799234728_1_alg».proof.Proof.Gen.KernelIdeal.Value
import proofs.«132830_j19799799234728_1_alg».proof.Proof.Gen.ReferenceIdeal.Run
import proofs.«132830_j19799799234728_1_alg».proof.Proof.Gen.ReferenceIdeal.Read
import proofs.«132830_j19799799234728_1_alg».proof.Proof.Spec
import proofs.«132830_j19799799234728_1_alg».proof.Proof.KernelValue
import proofs.«132830_j19799799234728_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `Cert.Bilinear.G` of the argument arrays: the kernel's run read block by block
    (`Cert.KernelIdeal.Hand.run`), the reference's run read operation by operation (`Cert.ReferenceIdeal.RefValue.ref_eq`). -/
theorem algebraic : Cert.algebraic_KernelIdeal_ReferenceIdeal := by
  intro m ρ m' ρ' _ hagree
  refine ⟨fun c => Cert.Bilinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v124_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
